-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x28x28 : Shape := ⟨4, ![16, 64, 28, 28]⟩
abbrev S64x64x3x3 : Shape := ⟨4, ![64, 64, 3, 3]⟩
abbrev S_ : Shape := ⟨0, ![]⟩

class Facts : Prop where
  bcast_S_S16x64x28x28 : S_.BroadcastsInDim S16x64x28x28 (![] : Fin 0 → Fin S16x64x28x28.rank)
  reducesTo_S16x64x28x28_S_d0_1_2_3 : S16x64x28x28.ReducesTo [0, 1, 2, 3] S_
  h_S_ : 0 < S_.numel
  bcast_S_S64x64x3x3 : S_.BroadcastsInDim S64x64x3x3 (![] : Fin 0 → Fin S64x64x3x3.rank)
  reducesTo_S64x64x3x3_S_d0_1_2_3 : S64x64x3x3.ReducesTo [0, 1, 2, 3] S_

variable [Facts]

def fn {F : FTy → Type} [FloatOps F] (main_arg0 : FVec F S16x64x28x28 .f32) (main_arg1 : FVec F S64x64x3x3 .f32) : IVec S_ 1 :=
  let main_v0 : FVec F S16x64x28x28 .f32 := Host.absf main_arg0
  let main_cst : FVec F S_ .f32 := constant S_ .f32 0x7F800000#32
  let main_v1 : FVec F S16x64x28x28 .f32 := broadcastInDim S16x64x28x28 ![] bcast_S_S16x64x28x28 main_cst
  let main_v2 : IVec S16x64x28x28 1 := cmpf .olt main_v0 main_v1
  let main_c : IVec S_ 1 := constantI S_ 1 1#1
  let main_v3 : IVec S_ 1 := (fun x v => Host.reduce IntOp.andi x v reducesTo_S16x64x28x28_S_d0_1_2_3 h_S_) main_v2 main_c
  let main_v4 : FVec F S64x64x3x3 .f32 := Host.absf main_arg1
  let main_cst_0 : FVec F S_ .f32 := constant S_ .f32 0x7F800000#32
  let main_v5 : FVec F S64x64x3x3 .f32 := broadcastInDim S64x64x3x3 ![] bcast_S_S64x64x3x3 main_cst_0
  let main_v6 : IVec S64x64x3x3 1 := cmpf .olt main_v4 main_v5
  let main_c_1 : IVec S_ 1 := constantI S_ 1 1#1
  let main_v7 : IVec S_ 1 := (fun x v => Host.reduce IntOp.andi x v reducesTo_S64x64x3x3_S_d0_1_2_3 h_S_) main_v6 main_c_1
  let main_v8 : IVec S_ 1 := andi main_v3 main_v7
  main_v8
-- ==== Kernel.lean ====
abbrev S16x64x28x28 : Shape := ⟨4, ![16, 64, 28, 28]⟩
abbrev S64x64x3x3 : Shape := ⟨4, ![64, 64, 3, 3]⟩
abbrev S_ : Shape := ⟨0, ![]⟩
abbrev S16x64x30x30 : Shape := ⟨4, ![16, 64, 30, 30]⟩
abbrev S16x30x30x64 : Shape := ⟨4, ![16, 30, 30, 64]⟩
abbrev S3x3x64x64 : Shape := ⟨4, ![3, 3, 64, 64]⟩
abbrev S16x28x28x64 : Shape := ⟨4, ![16, 28, 28, 64]⟩
abbrev S1x30x30x64 : Shape := ⟨4, ![1, 30, 30, 64]⟩
abbrev S1x28x28x64 : Shape := ⟨4, ![1, 28, 28, 64]⟩
abbrev S28x28x64 : Shape := ⟨3, ![28, 28, 64]⟩
abbrev S28x28x16 : Shape := ⟨3, ![28, 28, 16]⟩
abbrev S1x1x16x64 : Shape := ⟨4, ![1, 1, 16, 64]⟩
abbrev S16x64 : Shape := ⟨2, ![16, 64]⟩
abbrev S28x28x16x1 : Shape := ⟨4, ![28, 28, 16, 1]⟩
abbrev S28x28x16x64 : Shape := ⟨4, ![28, 28, 16, 64]⟩

abbrev nBuf : Space → Nat
  | .hbm => 9
  | .vmem => 6
  | .smem => 0
  | _ => 0

abbrev bufTy : (tb : Table) → Fin (tcTables nBuf tb) → BufTy
  | .hbm, ⟨0, _⟩ => ⟨S16x64x28x28, .f32⟩
  | .hbm, ⟨1, _⟩ => ⟨S64x64x3x3, .f32⟩
  | .hbm, ⟨2, _⟩ => ⟨S_, .i32⟩
  | .hbm, ⟨3, _⟩ => ⟨S_, .f32⟩
  | .hbm, ⟨4, _⟩ => ⟨S16x64x30x30, .f32⟩
  | .hbm, ⟨5, _⟩ => ⟨S16x30x30x64, .f32⟩
  | .hbm, ⟨6, _⟩ => ⟨S3x3x64x64, .f32⟩
  | .hbm, ⟨7, _⟩ => ⟨S16x28x28x64, .f32⟩
  | .hbm, ⟨8, _⟩ => ⟨S16x64x28x28, .f32⟩
  | .local _ .vmem, ⟨0, _⟩ => ⟨S1x30x30x64, .f32⟩
  | .local _ .vmem, ⟨1, _⟩ => ⟨S1x30x30x64, .f32⟩
  | .local _ .vmem, ⟨2, _⟩ => ⟨S3x3x64x64, .f32⟩
  | .local _ .vmem, ⟨3, _⟩ => ⟨S1x28x28x64, .f32⟩
  | .local _ .vmem, ⟨4, _⟩ => ⟨S1x28x28x64, .f32⟩
  | .local _ .vmem, ⟨5, _⟩ => ⟨S28x28x64, .f32⟩
  | _, _ => ⟨S16x64x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x30x30x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x28x28x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S16x64x28x28_S16x64x30x30_000_000_110_110 : S16x64x28x28.Pads (![0, 0, 1, 1] : Fin 4 → Nat) ![0, 0, 1, 1] ![0, 0, 0, 0] S16x64x30x30
  h_S_ : 0 < S_.numel
  transposes_S16x64x30x30_S16x30x30x64_0_2_3_1 : S16x64x30x30.Transposes [0, 2, 3, 1] S16x30x30x64
  transposes_S64x64x3x3_S3x3x64x64_2_3_1_0 : S64x64x3x3.Transposes [2, 3, 1, 0] S3x3x64x64
  inb_S28x28x64_S28x28x64_0_0_0 : ∀ a, (![0, 0, 0] : Fin 3 → Nat) a + S28x28x64.size a ≤ S28x28x64.size a
  h_S28x28x64 : 0 < S28x28x64.numel
  shapeCasts_S28x28x64_S28x28x64 : S28x28x64.ShapeCasts S28x28x64
  inb_S1x30x30x64_S1x28x28x64_0_0_0_0 : ∀ a, (![0, 0, 0, 0] : Fin 4 → Nat) a + S1x28x28x64.size a ≤ S1x30x30x64.size a
  h_S1x28x28x64 : 0 < S1x28x28x64.numel
  shapeCasts_S1x28x28x64_S28x28x64 : S1x28x28x64.ShapeCasts S28x28x64
  slices_S28x28x64_o0_0_0_S28x28x16 : S28x28x64.Slices ![0, 0, 0] S28x28x16
  inb_S3x3x64x64_S1x1x16x64_0_0_0_0 : ∀ a, (![0, 0, 0, 0] : Fin 4 → Nat) a + S1x1x16x64.size a ≤ S3x3x64x64.size a
  h_S1x1x16x64 : 0 < S1x1x16x64.numel
  shapeCasts_S1x1x16x64_S16x64 : S1x1x16x64.ShapeCasts S16x64
  shapeCasts_S28x28x16_S28x28x16x1 : S28x28x16.ShapeCasts S28x28x16x1
  shapeCasts_S16x64_S1x1x16x64 : S16x64.ShapeCasts S1x1x16x64
  broadcasts_S28x28x16x1_S28x28x16x64 : S28x28x16x1.Broadcasts S28x28x16x64
  broadcasts_S1x1x16x64_S28x28x16x64 : S1x1x16x64.Broadcasts S28x28x16x64
  reduces_S28x28x16x64_S28x28x64 : S28x28x16x64.Reduces [2] S28x28x64
  slices_S28x28x64_o0_0_16_S28x28x16 : S28x28x64.Slices ![0, 0, 16] S28x28x16
  inb_S3x3x64x64_S1x1x16x64_0_0_16_0 : ∀ a, (![0, 0, 16, 0] : Fin 4 → Nat) a + S1x1x16x64.size a ≤ S3x3x64x64.size a
  slices_S28x28x64_o0_0_32_S28x28x16 : S28x28x64.Slices ![0, 0, 32] S28x28x16
  inb_S3x3x64x64_S1x1x16x64_0_0_32_0 : ∀ a, (![0, 0, 32, 0] : Fin 4 → Nat) a + S1x1x16x64.size a ≤ S3x3x64x64.size a
  slices_S28x28x64_o0_0_48_S28x28x16 : S28x28x64.Slices ![0, 0, 48] S28x28x16
  inb_S3x3x64x64_S1x1x16x64_0_0_48_0 : ∀ a, (![0, 0, 48, 0] : Fin 4 → Nat) a + S1x1x16x64.size a ≤ S3x3x64x64.size a
  inb_S1x30x30x64_S1x28x28x64_0_0_1_0 : ∀ a, (![0, 0, 1, 0] : Fin 4 → Nat) a + S1x28x28x64.size a ≤ S1x30x30x64.size a
  inb_S3x3x64x64_S1x1x16x64_0_1_0_0 : ∀ a, (![0, 1, 0, 0] : Fin 4 → Nat) a + S1x1x16x64.size a ≤ S3x3x64x64.size a
  inb_S3x3x64x64_S1x1x16x64_0_1_16_0 : ∀ a, (![0, 1, 16, 0] : Fin 4 → Nat) a + S1x1x16x64.size a ≤ S3x3x64x64.size a
  inb_S3x3x64x64_S1x1x16x64_0_1_32_0 : ∀ a, (![0, 1, 32, 0] : Fin 4 → Nat) a + S1x1x16x64.size a ≤ S3x3x64x64.size a
  inb_S3x3x64x64_S1x1x16x64_0_1_48_0 : ∀ a, (![0, 1, 48, 0] : Fin 4 → Nat) a + S1x1x16x64.size a ≤ S3x3x64x64.size a
  inb_S1x30x30x64_S1x28x28x64_0_0_2_0 : ∀ a, (![0, 0, 2, 0] : Fin 4 → Nat) a + S1x28x28x64.size a ≤ S1x30x30x64.size a
  inb_S3x3x64x64_S1x1x16x64_0_2_0_0 : ∀ a, (![0, 2, 0, 0] : Fin 4 → Nat) a + S1x1x16x64.size a ≤ S3x3x64x64.size a
  inb_S3x3x64x64_S1x1x16x64_0_2_16_0 : ∀ a, (![0, 2, 16, 0] : Fin 4 → Nat) a + S1x1x16x64.size a ≤ S3x3x64x64.size a
  inb_S3x3x64x64_S1x1x16x64_0_2_32_0 : ∀ a, (![0, 2, 32, 0] : Fin 4 → Nat) a + S1x1x16x64.size a ≤ S3x3x64x64.size a
  inb_S3x3x64x64_S1x1x16x64_0_2_48_0 : ∀ a, (![0, 2, 48, 0] : Fin 4 → Nat) a + S1x1x16x64.size a ≤ S3x3x64x64.size a
  inb_S1x30x30x64_S1x28x28x64_0_1_0_0 : ∀ a, (![0, 1, 0, 0] : Fin 4 → Nat) a + S1x28x28x64.size a ≤ S1x30x30x64.size a
  inb_S3x3x64x64_S1x1x16x64_1_0_0_0 : ∀ a, (![1, 0, 0, 0] : Fin 4 → Nat) a + S1x1x16x64.size a ≤ S3x3x64x64.size a
  inb_S3x3x64x64_S1x1x16x64_1_0_16_0 : ∀ a, (![1, 0, 16, 0] : Fin 4 → Nat) a + S1x1x16x64.size a ≤ S3x3x64x64.size a
  inb_S3x3x64x64_S1x1x16x64_1_0_32_0 : ∀ a, (![1, 0, 32, 0] : Fin 4 → Nat) a + S1x1x16x64.size a ≤ S3x3x64x64.size a
  inb_S3x3x64x64_S1x1x16x64_1_0_48_0 : ∀ a, (![1, 0, 48, 0] : Fin 4 → Nat) a + S1x1x16x64.size a ≤ S3x3x64x64.size a
  inb_S1x30x30x64_S1x28x28x64_0_1_1_0 : ∀ a, (![0, 1, 1, 0] : Fin 4 → Nat) a + S1x28x28x64.size a ≤ S1x30x30x64.size a
  inb_S3x3x64x64_S1x1x16x64_1_1_0_0 : ∀ a, (![1, 1, 0, 0] : Fin 4 → Nat) a + S1x1x16x64.size a ≤ S3x3x64x64.size a
  inb_S3x3x64x64_S1x1x16x64_1_1_16_0 : ∀ a, (![1, 1, 16, 0] : Fin 4 → Nat) a + S1x1x16x64.size a ≤ S3x3x64x64.size a
  inb_S3x3x64x64_S1x1x16x64_1_1_32_0 : ∀ a, (![1, 1, 32, 0] : Fin 4 → Nat) a + S1x1x16x64.size a ≤ S3x3x64x64.size a
  inb_S3x3x64x64_S1x1x16x64_1_1_48_0 : ∀ a, (![1, 1, 48, 0] : Fin 4 → Nat) a + S1x1x16x64.size a ≤ S3x3x64x64.size a
  inb_S1x30x30x64_S1x28x28x64_0_1_2_0 : ∀ a, (![0, 1, 2, 0] : Fin 4 → Nat) a + S1x28x28x64.size a ≤ S1x30x30x64.size a
  inb_S3x3x64x64_S1x1x16x64_1_2_0_0 : ∀ a, (![1, 2, 0, 0] : Fin 4 → Nat) a + S1x1x16x64.size a ≤ S3x3x64x64.size a
  inb_S3x3x64x64_S1x1x16x64_1_2_16_0 : ∀ a, (![1, 2, 16, 0] : Fin 4 → Nat) a + S1x1x16x64.size a ≤ S3x3x64x64.size a
  inb_S3x3x64x64_S1x1x16x64_1_2_32_0 : ∀ a, (![1, 2, 32, 0] : Fin 4 → Nat) a + S1x1x16x64.size a ≤ S3x3x64x64.size a
  inb_S3x3x64x64_S1x1x16x64_1_2_48_0 : ∀ a, (![1, 2, 48, 0] : Fin 4 → Nat) a + S1x1x16x64.size a ≤ S3x3x64x64.size a
  inb_S1x30x30x64_S1x28x28x64_0_2_0_0 : ∀ a, (![0, 2, 0, 0] : Fin 4 → Nat) a + S1x28x28x64.size a ≤ S1x30x30x64.size a
  inb_S3x3x64x64_S1x1x16x64_2_0_0_0 : ∀ a, (![2, 0, 0, 0] : Fin 4 → Nat) a + S1x1x16x64.size a ≤ S3x3x64x64.size a
  inb_S3x3x64x64_S1x1x16x64_2_0_16_0 : ∀ a, (![2, 0, 16, 0] : Fin 4 → Nat) a + S1x1x16x64.size a ≤ S3x3x64x64.size a
  inb_S3x3x64x64_S1x1x16x64_2_0_32_0 : ∀ a, (![2, 0, 32, 0] : Fin 4 → Nat) a + S1x1x16x64.size a ≤ S3x3x64x64.size a
  inb_S3x3x64x64_S1x1x16x64_2_0_48_0 : ∀ a, (![2, 0, 48, 0] : Fin 4 → Nat) a + S1x1x16x64.size a ≤ S3x3x64x64.size a
  inb_S1x30x30x64_S1x28x28x64_0_2_1_0 : ∀ a, (![0, 2, 1, 0] : Fin 4 → Nat) a + S1x28x28x64.size a ≤ S1x30x30x64.size a
  inb_S3x3x64x64_S1x1x16x64_2_1_0_0 : ∀ a, (![2, 1, 0, 0] : Fin 4 → Nat) a + S1x1x16x64.size a ≤ S3x3x64x64.size a
  inb_S3x3x64x64_S1x1x16x64_2_1_16_0 : ∀ a, (![2, 1, 16, 0] : Fin 4 → Nat) a + S1x1x16x64.size a ≤ S3x3x64x64.size a
  inb_S3x3x64x64_S1x1x16x64_2_1_32_0 : ∀ a, (![2, 1, 32, 0] : Fin 4 → Nat) a + S1x1x16x64.size a ≤ S3x3x64x64.size a
  inb_S3x3x64x64_S1x1x16x64_2_1_48_0 : ∀ a, (![2, 1, 48, 0] : Fin 4 → Nat) a + S1x1x16x64.size a ≤ S3x3x64x64.size a
  inb_S1x30x30x64_S1x28x28x64_0_2_2_0 : ∀ a, (![0, 2, 2, 0] : Fin 4 → Nat) a + S1x28x28x64.size a ≤ S1x30x30x64.size a
  inb_S3x3x64x64_S1x1x16x64_2_2_0_0 : ∀ a, (![2, 2, 0, 0] : Fin 4 → Nat) a + S1x1x16x64.size a ≤ S3x3x64x64.size a
  inb_S3x3x64x64_S1x1x16x64_2_2_16_0 : ∀ a, (![2, 2, 16, 0] : Fin 4 → Nat) a + S1x1x16x64.size a ≤ S3x3x64x64.size a
  inb_S3x3x64x64_S1x1x16x64_2_2_32_0 : ∀ a, (![2, 2, 32, 0] : Fin 4 → Nat) a + S1x1x16x64.size a ≤ S3x3x64x64.size a
  inb_S3x3x64x64_S1x1x16x64_2_2_48_0 : ∀ a, (![2, 2, 48, 0] : Fin 4 → Nat) a + S1x1x16x64.size a ≤ S3x3x64x64.size a
  inb_S1x28x28x64_S1x28x28x64_0_0_0_0 : ∀ a, (![0, 0, 0, 0] : Fin 4 → Nat) a + S1x28x28x64.size a ≤ S1x28x28x64.size a
  shapeCasts_S28x28x64_S1x28x28x64 : S28x28x64.ShapeCasts S1x28x28x64
  transposes_S16x28x28x64_S16x64x28x28_0_3_1_2 : S16x28x28x64.Transposes [0, 3, 1, 2] S16x64x28x28
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x30x30x64.size a ≤ S16x30x30x64.size a
  hwx0_0 : ∀ i : grid0.Coords, EltTy.bits .f32 = 32 ∨ (Rect.block (s := S16x30x30x64) S1x30x30x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3x64x64.size a ≤ S3x3x64x64.size a
  hwx0_1 : ∀ i : grid0.Coords, EltTy.bits .f32 = 32 ∨ (Rect.block (s := S3x3x64x64) S3x3x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x28x28x64.size a ≤ S16x28x28x64.size a
  hwx0_2 : ∀ i : grid0.Coords, EltTy.bits .f32 = 32 ∨ (Rect.block (s := S16x28x28x64) S1x28x28x64.size (cc0_transform_2 i) (hinb0_2 i)).WholeWords (EltTy.packing .f32)

variable [Facts₀]

abbrev win0_0 : Pipeline.Window sig grid0 :=
  Pipeline.Window.ofSpec (Memref.whole main_v1) S1x30x30x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x3x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x28x28x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x28x28 : Shape := ⟨4, ![16, 64, 28, 28]⟩
abbrev S64x64x3x3 : Shape := ⟨4, ![64, 64, 3, 3]⟩
abbrev S_ : Shape := ⟨0, ![]⟩
abbrev S16x64x30x30 : Shape := ⟨4, ![16, 64, 30, 30]⟩
abbrev S16x1x64x28x28 : Shape := ⟨5, ![16, 1, 64, 28, 28]⟩
abbrev S64x64x1x1 : Shape := ⟨4, ![64, 64, 1, 1]⟩
abbrev S64x64 : Shape := ⟨2, ![64, 64]⟩
abbrev S1x64x64x1x1 : Shape := ⟨5, ![1, 64, 64, 1, 1]⟩
abbrev S16x64x64x28x28 : Shape := ⟨5, ![16, 64, 64, 28, 28]⟩

abbrev nBuf : Space → Nat
  | .hbm => 115
  | .vmem => 0
  | .smem => 0
  | _ => 0

abbrev bufTy : (tb : Table) → Fin (tcTables nBuf tb) → BufTy
  | .hbm, ⟨0, _⟩ => ⟨S16x64x28x28, .f32⟩
  | .hbm, ⟨1, _⟩ => ⟨S64x64x3x3, .f32⟩
  | .hbm, ⟨2, _⟩ => ⟨S_, .i32⟩
  | .hbm, ⟨3, _⟩ => ⟨S_, .f32⟩
  | .hbm, ⟨4, _⟩ => ⟨S16x64x30x30, .f32⟩
  | .hbm, ⟨5, _⟩ => ⟨S_, .f32⟩
  | .hbm, ⟨6, _⟩ => ⟨S16x64x28x28, .f32⟩
  | .hbm, ⟨7, _⟩ => ⟨S16x64x28x28, .f32⟩
  | .hbm, ⟨8, _⟩ => ⟨S16x1x64x28x28, .f32⟩
  | .hbm, ⟨9, _⟩ => ⟨S64x64x1x1, .f32⟩
  | .hbm, ⟨10, _⟩ => ⟨S64x64, .f32⟩
  | .hbm, ⟨11, _⟩ => ⟨S1x64x64x1x1, .f32⟩
  | .hbm, ⟨12, _⟩ => ⟨S16x64x64x28x28, .f32⟩
  | .hbm, ⟨13, _⟩ => ⟨S16x64x64x28x28, .f32⟩
  | .hbm, ⟨14, _⟩ => ⟨S16x64x64x28x28, .f32⟩
  | .hbm, ⟨15, _⟩ => ⟨S16x64x64x28x28, .f32⟩
  | .hbm, ⟨16, _⟩ => ⟨S_, .f32⟩
  | .hbm, ⟨17, _⟩ => ⟨S16x64x28x28, .f32⟩
  | .hbm, ⟨18, _⟩ => ⟨S16x64x28x28, .f32⟩
  | .hbm, ⟨19, _⟩ => ⟨S16x64x28x28, .f32⟩
  | .hbm, ⟨20, _⟩ => ⟨S16x1x64x28x28, .f32⟩
  | .hbm, ⟨21, _⟩ => ⟨S64x64x1x1, .f32⟩
  | .hbm, ⟨22, _⟩ => ⟨S64x64, .f32⟩
  | .hbm, ⟨23, _⟩ => ⟨S1x64x64x1x1, .f32⟩
  | .hbm, ⟨24, _⟩ => ⟨S16x64x64x28x28, .f32⟩
  | .hbm, ⟨25, _⟩ => ⟨S16x64x64x28x28, .f32⟩
  | .hbm, ⟨26, _⟩ => ⟨S16x64x64x28x28, .f32⟩
  | .hbm, ⟨27, _⟩ => ⟨S16x64x64x28x28, .f32⟩
  | .hbm, ⟨28, _⟩ => ⟨S_, .f32⟩
  | .hbm, ⟨29, _⟩ => ⟨S16x64x28x28, .f32⟩
  | .hbm, ⟨30, _⟩ => ⟨S16x64x28x28, .f32⟩
  | .hbm, ⟨31, _⟩ => ⟨S16x64x28x28, .f32⟩
  | .hbm, ⟨32, _⟩ => ⟨S16x1x64x28x28, .f32⟩
  | .hbm, ⟨33, _⟩ => ⟨S64x64x1x1, .f32⟩
  | .hbm, ⟨34, _⟩ => ⟨S64x64, .f32⟩
  | .hbm, ⟨35, _⟩ => ⟨S1x64x64x1x1, .f32⟩
  | .hbm, ⟨36, _⟩ => ⟨S16x64x64x28x28, .f32⟩
  | .hbm, ⟨37, _⟩ => ⟨S16x64x64x28x28, .f32⟩
  | .hbm, ⟨38, _⟩ => ⟨S16x64x64x28x28, .f32⟩
  | .hbm, ⟨39, _⟩ => ⟨S16x64x64x28x28, .f32⟩
  | .hbm, ⟨40, _⟩ => ⟨S_, .f32⟩
  | .hbm, ⟨41, _⟩ => ⟨S16x64x28x28, .f32⟩
  | .hbm, ⟨42, _⟩ => ⟨S16x64x28x28, .f32⟩
  | .hbm, ⟨43, _⟩ => ⟨S16x64x28x28, .f32⟩
  | .hbm, ⟨44, _⟩ => ⟨S16x1x64x28x28, .f32⟩
  | .hbm, ⟨45, _⟩ => ⟨S64x64x1x1, .f32⟩
  | .hbm, ⟨46, _⟩ => ⟨S64x64, .f32⟩
  | .hbm, ⟨47, _⟩ => ⟨S1x64x64x1x1, .f32⟩
  | .hbm, ⟨48, _⟩ => ⟨S16x64x64x28x28, .f32⟩
  | .hbm, ⟨49, _⟩ => ⟨S16x64x64x28x28, .f32⟩
  | .hbm, ⟨50, _⟩ => ⟨S16x64x64x28x28, .f32⟩
  | .hbm, ⟨51, _⟩ => ⟨S16x64x64x28x28, .f32⟩
  | .hbm, ⟨52, _⟩ => ⟨S_, .f32⟩
  | .hbm, ⟨53, _⟩ => ⟨S16x64x28x28, .f32⟩
  | .hbm, ⟨54, _⟩ => ⟨S16x64x28x28, .f32⟩
  | .hbm, ⟨55, _⟩ => ⟨S16x64x28x28, .f32⟩
  | .hbm, ⟨56, _⟩ => ⟨S16x1x64x28x28, .f32⟩
  | .hbm, ⟨57, _⟩ => ⟨S64x64x1x1, .f32⟩
  | .hbm, ⟨58, _⟩ => ⟨S64x64, .f32⟩
  | .hbm, ⟨59, _⟩ => ⟨S1x64x64x1x1, .f32⟩
  | .hbm, ⟨60, _⟩ => ⟨S16x64x64x28x28, .f32⟩
  | .hbm, ⟨61, _⟩ => ⟨S16x64x64x28x28, .f32⟩
  | .hbm, ⟨62, _⟩ => ⟨S16x64x64x28x28, .f32⟩
  | .hbm, ⟨63, _⟩ => ⟨S16x64x64x28x28, .f32⟩
  | .hbm, ⟨64, _⟩ => ⟨S_, .f32⟩
  | .hbm, ⟨65, _⟩ => ⟨S16x64x28x28, .f32⟩
  | .hbm, ⟨66, _⟩ => ⟨S16x64x28x28, .f32⟩
  | .hbm, ⟨67, _⟩ => ⟨S16x64x28x28, .f32⟩
  | .hbm, ⟨68, _⟩ => ⟨S16x1x64x28x28, .f32⟩
  | .hbm, ⟨69, _⟩ => ⟨S64x64x1x1, .f32⟩
  | .hbm, ⟨70, _⟩ => ⟨S64x64, .f32⟩
  | .hbm, ⟨71, _⟩ => ⟨S1x64x64x1x1, .f32⟩
  | .hbm, ⟨72, _⟩ => ⟨S16x64x64x28x28, .f32⟩
  | .hbm, ⟨73, _⟩ => ⟨S16x64x64x28x28, .f32⟩
  | .hbm, ⟨74, _⟩ => ⟨S16x64x64x28x28, .f32⟩
  | .hbm, ⟨75, _⟩ => ⟨S16x64x64x28x28, .f32⟩
  | .hbm, ⟨76, _⟩ => ⟨S_, .f32⟩
  | .hbm, ⟨77, _⟩ => ⟨S16x64x28x28, .f32⟩
  | .hbm, ⟨78, _⟩ => ⟨S16x64x28x28, .f32⟩
  | .hbm, ⟨79, _⟩ => ⟨S16x64x28x28, .f32⟩
  | .hbm, ⟨80, _⟩ => ⟨S16x1x64x28x28, .f32⟩
  | .hbm, ⟨81, _⟩ => ⟨S64x64x1x1, .f32⟩
  | .hbm, ⟨82, _⟩ => ⟨S64x64, .f32⟩
  | .hbm, ⟨83, _⟩ => ⟨S1x64x64x1x1, .f32⟩
  | .hbm, ⟨84, _⟩ => ⟨S16x64x64x28x28, .f32⟩
  | .hbm, ⟨85, _⟩ => ⟨S16x64x64x28x28, .f32⟩
  | .hbm, ⟨86, _⟩ => ⟨S16x64x64x28x28, .f32⟩
  | .hbm, ⟨87, _⟩ => ⟨S16x64x64x28x28, .f32⟩
  | .hbm, ⟨88, _⟩ => ⟨S_, .f32⟩
  | .hbm, ⟨89, _⟩ => ⟨S16x64x28x28, .f32⟩
  | .hbm, ⟨90, _⟩ => ⟨S16x64x28x28, .f32⟩
  | .hbm, ⟨91, _⟩ => ⟨S16x64x28x28, .f32⟩
  | .hbm, ⟨92, _⟩ => ⟨S16x1x64x28x28, .f32⟩
  | .hbm, ⟨93, _⟩ => ⟨S64x64x1x1, .f32⟩
  | .hbm, ⟨94, _⟩ => ⟨S64x64, .f32⟩
  | .hbm, ⟨95, _⟩ => ⟨S1x64x64x1x1, .f32⟩
  | .hbm, ⟨96, _⟩ => ⟨S16x64x64x28x28, .f32⟩
  | .hbm, ⟨97, _⟩ => ⟨S16x64x64x28x28, .f32⟩
  | .hbm, ⟨98, _⟩ => ⟨S16x64x64x28x28, .f32⟩
  | .hbm, ⟨99, _⟩ => ⟨S16x64x64x28x28, .f32⟩
  | .hbm, ⟨100, _⟩ => ⟨S_, .f32⟩
  | .hbm, ⟨101, _⟩ => ⟨S16x64x28x28, .f32⟩
  | .hbm, ⟨102, _⟩ => ⟨S16x64x28x28, .f32⟩
  | .hbm, ⟨103, _⟩ => ⟨S16x64x28x28, .f32⟩
  | .hbm, ⟨104, _⟩ => ⟨S16x1x64x28x28, .f32⟩
  | .hbm, ⟨105, _⟩ => ⟨S64x64x1x1, .f32⟩
  | .hbm, ⟨106, _⟩ => ⟨S64x64, .f32⟩
  | .hbm, ⟨107, _⟩ => ⟨S1x64x64x1x1, .f32⟩
  | .hbm, ⟨108, _⟩ => ⟨S16x64x64x28x28, .f32⟩
  | .hbm, ⟨109, _⟩ => ⟨S16x64x64x28x28, .f32⟩
  | .hbm, ⟨110, _⟩ => ⟨S16x64x64x28x28, .f32⟩
  | .hbm, ⟨111, _⟩ => ⟨S16x64x64x28x28, .f32⟩
  | .hbm, ⟨112, _⟩ => ⟨S_, .f32⟩
  | .hbm, ⟨113, _⟩ => ⟨S16x64x28x28, .f32⟩
  | .hbm, ⟨114, _⟩ => ⟨S16x64x28x28, .f32⟩
  | _, _ => ⟨S16x64x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_4 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_5 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_6 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_7 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_cst_8 : Ref sig .tc := ⟨.hbm, 112, rfl⟩
abbrev main_v99 : Ref sig .tc := ⟨.hbm, 113, rfl⟩
abbrev main_v100 : Ref sig .tc := ⟨.hbm, 114, rfl⟩

abbrev nD : Nat := 1
abbrev τ : Topo := Topo.v7x

variable {F : FTy → Type} [FloatOps F]

class Facts₀ : Prop where
  pads_S16x64x28x28_S16x64x30x30_000_000_110_110 : S16x64x28x28.Pads (![0, 0, 1, 1] : Fin 4 → Nat) ![0, 0, 1, 1] ![0, 0, 0, 0] S16x64x30x30
  h_S_ : 0 < S_.numel
  bcast_S_S16x64x28x28 : S_.BroadcastsInDim S16x64x28x28 (![] : Fin 0 → Fin S16x64x28x28.rank)
  slices_S16x64x30x30_S16x64x28x28_0_0_0_0 : S16x64x30x30.Slices ![0, 0, 0, 0] S16x64x28x28
  bcast_S16x64x28x28_S16x1x64x28x28_0_2_3_4 : S16x64x28x28.BroadcastsInDim S16x1x64x28x28 (![0, 2, 3, 4] : Fin 4 → Fin S16x1x64x28x28.rank)
  slices_S64x64x3x3_S64x64x1x1_0_0_0_0 : S64x64x3x3.Slices ![0, 0, 0, 0] S64x64x1x1
  shapeCasts_S64x64x1x1_S64x64 : S64x64x1x1.ShapeCasts S64x64
  bcast_S64x64_S1x64x64x1x1_1_2 : S64x64.BroadcastsInDim S1x64x64x1x1 (![1, 2] : Fin 2 → Fin S1x64x64x1x1.rank)
  bcast_S16x1x64x28x28_S16x64x64x28x28_0_1_2_3_4 : S16x1x64x28x28.BroadcastsInDim S16x64x64x28x28 (![0, 1, 2, 3, 4] : Fin 5 → Fin S16x64x64x28x28.rank)
  bcast_S1x64x64x1x1_S16x64x64x28x28_0_1_2_3_4 : S1x64x64x1x1.BroadcastsInDim S16x64x64x28x28 (![0, 1, 2, 3, 4] : Fin 5 → Fin S16x64x64x28x28.rank)
  reducesTo_S16x64x64x28x28_S16x64x28x28_d2 : S16x64x64x28x28.ReducesTo [2] S16x64x28x28
  slices_S16x64x30x30_S16x64x28x28_0_0_0_1 : S16x64x30x30.Slices ![0, 0, 0, 1] S16x64x28x28
  slices_S64x64x3x3_S64x64x1x1_0_0_0_1 : S64x64x3x3.Slices ![0, 0, 0, 1] S64x64x1x1
  slices_S16x64x30x30_S16x64x28x28_0_0_0_2 : S16x64x30x30.Slices ![0, 0, 0, 2] S16x64x28x28
  slices_S64x64x3x3_S64x64x1x1_0_0_0_2 : S64x64x3x3.Slices ![0, 0, 0, 2] S64x64x1x1
  slices_S16x64x30x30_S16x64x28x28_0_0_1_0 : S16x64x30x30.Slices ![0, 0, 1, 0] S16x64x28x28
  slices_S64x64x3x3_S64x64x1x1_0_0_1_0 : S64x64x3x3.Slices ![0, 0, 1, 0] S64x64x1x1
  slices_S16x64x30x30_S16x64x28x28_0_0_1_1 : S16x64x30x30.Slices ![0, 0, 1, 1] S16x64x28x28
  slices_S64x64x3x3_S64x64x1x1_0_0_1_1 : S64x64x3x3.Slices ![0, 0, 1, 1] S64x64x1x1
  slices_S16x64x30x30_S16x64x28x28_0_0_1_2 : S16x64x30x30.Slices ![0, 0, 1, 2] S16x64x28x28
  slices_S64x64x3x3_S64x64x1x1_0_0_1_2 : S64x64x3x3.Slices ![0, 0, 1, 2] S64x64x1x1
  slices_S16x64x30x30_S16x64x28x28_0_0_2_0 : S16x64x30x30.Slices ![0, 0, 2, 0] S16x64x28x28
  slices_S64x64x3x3_S64x64x1x1_0_0_2_0 : S64x64x3x3.Slices ![0, 0, 2, 0] S64x64x1x1
  slices_S16x64x30x30_S16x64x28x28_0_0_2_1 : S16x64x30x30.Slices ![0, 0, 2, 1] S16x64x28x28
  slices_S64x64x3x3_S64x64x1x1_0_0_2_1 : S64x64x3x3.Slices ![0, 0, 2, 1] S64x64x1x1
  slices_S16x64x30x30_S16x64x28x28_0_0_2_2 : S16x64x30x30.Slices ![0, 0, 2, 2] S16x64x28x28
  slices_S64x64x3x3_S64x64x1x1_0_0_2_2 : S64x64x3x3.Slices ![0, 0, 2, 2] S64x64x1x1

variable [Facts₀]

class Facts : Prop extends Facts₀ where

variable [Facts]
-- ==== Proof.LibWholeRoundTrip.lean ====
/-
  A buffer stored whole and then loaded whole.

  When the last store to a buffer went through the rectangle that is the whole buffer (all offsets zero, the buffer's own
  sizes), a load through that same rectangle reads exactly the stored value, whatever the earlier stores left: the
  last piece covers every index.  This is the step an accumulator kept in a scratch buffer takes on every
  read-modify-write.
-/
import Idealize.ShloMosaic.Lib.Pipeline.Value

noncomputable section

namespace Idealize.ShloMosaic.View

variable {sig : RefSig} {κ : Kind} {sp : Space} {S : Shape} {e : EltTy} {Val : EltTy → Type}

/-- A load of the whole buffer right after a store of the whole buffer reads what was stored, whatever was stored
    before: `v.readCov (⟨whole, w⟩ :: L) whole = w`, the whole-buffer rectangle spelt with any offsets equal to zero. -/
theorem readCov_cons_whole [∀ e, Nonempty (Val e)] (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, mem_set_unit_zero rfl inb y⟩),
    canon_cons_unit_zero rfl, ld_unit_zero rfl]

end Idealize.ShloMosaic.View

end
-- ==== Proof.AdderBody.lean ====
/-
  What the kernel body leaves in its output block, as one function of its two input blocks.

  At a grid point the body sees one image of the padded input, `x0` of shape [1, 30, 30, 64] (row, column, channel), and
  the whole weight, `x1` of shape [3, 3, 64, 64] (tap row, tap column, input channel, output channel).  It zeroes a
  [28, 28, 64] accumulator and then, for each of the nine taps in window order and each of the four chunks of sixteen input
  channels, subtracts from the accumulator the sum over the chunk's channels of |window − weight|: the window is the
  [28, 28, 64] part of the image shifted by the tap, the weight the chunk's [16, 64] rows of that tap.  The output
  block is the accumulator after the thirty-six steps.

  `bodyVal` writes this down with one definition per stage (`tapWin`, `wLoad`, `chunkStep`, `tapSteps`), in the very
  operations the body uses; `out_eq_bodyVal` says that the block the run found is this function of the input blocks
  (a load of the whole accumulator after a store of the whole accumulator reads what was stored, thirty-seven times).
-/
import proofs.«155229_j65867618451686_2_alg».proof.Proof.Gen.KernelIdeal.Frame
import Idealize.ShloMosaic.Lib.Pipeline.Value
import proofs.«155229_j65867618451686_2_alg».proof.Proof.LibWholeRoundTrip

set_option maxRecDepth 16384

noncomputable section

namespace Cert.Adder.Kernel

open Cert.KernelIdeal Cert.KernelIdeal.Gen
open Idealize.ShloMosaic Idealize.ShloMosaic.TcCoe Idealize.ShloMosaic.Tactic
open Idealize.SL Idealize.SL.Sem

variable {F : FTy → Type} [FloatOps F]

theorem zeros3 : (![0, 0, 0] : Fin 3 → Nat) = fun _ => 0 := by funext a; fin_cases a <;> rfl
theorem zeros4 : (![0, 0, 0, 0] : Fin 4 → Nat) = fun _ => 0 := by funext a; fin_cases a <;> rfl

/-- The window of tap (kh, kw) lies inside the padded image. -/
theorem inbWin (kh kw : ℕ) (hk : kh ≤ 2) (hw : kw ≤ 2) :
    ∀ a, (![0, kh, kw, 0] : Fin 4 → ℕ) a + S1x28x28x64.size a ≤ S1x30x30x64.size a
  | ⟨0, _⟩ => by show 0 + 1 ≤ 1; omega
  | ⟨1, _⟩ => by show kh + 28 ≤ 30; omega
  | ⟨2, _⟩ => by show kw + 28 ≤ 30; omega
  | ⟨3, _⟩ => by show 0 + 64 ≤ 64; omega

/-- The sixteen rows from `o` of tap (kh, kw) lie inside the weight. -/
theorem inbW (kh kw o : ℕ) (hk : kh ≤ 2) (hw : kw ≤ 2) (ho : o + 16 ≤ 64) :
    ∀ a, (![kh, kw, o, 0] : Fin 4 → ℕ) a + S1x1x16x64.size a ≤ S3x3x64x64.size a
  | ⟨0, _⟩ => by show kh + 1 ≤ 3; omega
  | ⟨1, _⟩ => by show kw + 1 ≤ 3; omega
  | ⟨2, _⟩ => by show o + 16 ≤ 64; omega
  | ⟨3, _⟩ => by show 0 + 64 ≤ 64; omega

/-- The [28, 28, 64] window of the image under tap (kh, kw). -/
def tapWin (kh kw : ℕ) (hk : kh ≤ 2) (hw : kw ≤ 2) (x0 : Vec F S1x30x30x64 .f32) : FVec F S28x28x64 .f32 :=
  shapeCast S28x28x64 (View.ld x0 (Rect.unit ![0, kh, kw, 0] S1x28x28x64.size (inbWin kh kw hk hw))) shapeCasts_S1x28x28x64_S28x28x64

/-- The [1, 1, 16, 64] rows `o … o + 15` of tap (kh, kw) of the weight. -/
def wLoad (kh kw o : ℕ) (hk : kh ≤ 2) (hw : kw ≤ 2) (ho : o + 16 ≤ 64) (x1 : Vec F S3x3x64x64 .f32) : Vec F S1x1x16x64 .f32 :=
  View.ld x1 (Rect.unit ![kh, kw, o, 0] S1x1x16x64.size (inbW kh kw o hk hw ho))

/-- One step: from the accumulator subtract, at each (row, column, output channel), the sum over the sixteen channels from
    `o` of |window − weight|. -/
def chunkStep (o : ℕ) (hs : S28x28x64.Slices ![0, 0, o] S28x28x16) (xs : FVec F S28x28x64 .f32) (w : Vec F S1x1x16x64 .f32)
    (acc : FVec F S28x28x64 .f32) : FVec F S28x28x64 .f32 :=
  shapeCast S28x28x64
    (subf acc (multiReduction .add [2] S28x28x64
      (absf (subf
        (broadcastTo S28x28x16x64 (shapeCast S28x28x16x1 (extractStridedSlice S28x28x16 ![0, 0, o] xs hs) shapeCasts_S28x28x16_S28x28x16x1) broadcasts_S28x28x16x1_S28x28x16x64)
        (broadcastTo S28x28x16x64 (shapeCast S1x1x16x64 (shapeCast S16x64 w shapeCasts_S1x1x16x64_S16x64) shapeCasts_S16x64_S1x1x16x64) broadcasts_S1x1x16x64_S28x28x16x64)))
      0x00000000#32 reduces_S28x28x16x64_S28x28x64 (.inl rfl) rfl))
    shapeCasts_S28x28x64_S28x28x64

/-- The four steps of one tap, chunk after chunk. -/
def tapSteps (kh kw : ℕ) (hk : kh ≤ 2) (hw : kw ≤ 2) (x0 : Vec F S1x30x30x64 .f32) (x1 : Vec F S3x3x64x64 .f32)
    (acc : FVec F S28x28x64 .f32) : FVec F S28x28x64 .f32 :=
  chunkStep 48 slices_S28x28x64_o0_0_48_S28x28x16 (tapWin kh kw hk hw x0) (wLoad kh kw 48 hk hw (by omega) x1)
    (chunkStep 32 slices_S28x28x64_o0_0_32_S28x28x16 (tapWin kh kw hk hw x0) (wLoad kh kw 32 hk hw (by omega) x1)
      (chunkStep 16 slices_S28x28x64_o0_0_16_S28x28x16 (tapWin kh kw hk hw x0) (wLoad kh kw 16 hk hw (by omega) x1)
        (chunkStep 0 slices_S28x28x64_o0_0_0_S28x28x16 (tapWin kh kw hk hw x0) (wLoad kh kw 0 hk hw (by omega) x1) acc)))

/-- The accumulator as the body first fills it: zero everywhere. -/
def zeroAcc : FVec F S28x28x64 .f32 :=
  shapeCast S28x28x64 (broadcast S28x28x64 (Scalar.ofBits .f32 0x00000000#32)) shapeCasts_S28x28x64_S28x28x64

/-- The output block: the accumulator after the nine taps in window order, viewed [1, 28, 28, 64]. -/
def bodyVal (x0 : Vec F S1x30x30x64 .f32) (x1 : Vec F S3x3x64x64 .f32) : FVec F S1x28x28x64 .f32 :=
  shapeCast S1x28x28x64
    (tapSteps 2 2 (by omega) (by omega) x0 x1 (tapSteps 2 1 (by omega) (by omega) x0 x1 (tapSteps 2 0 (by omega) (by omega) x0 x1
    (tapSteps 1 2 (by omega) (by omega) x0 x1 (tapSteps 1 1 (by omega) (by omega) x0 x1 (tapSteps 1 0 (by omega) (by omega) x0 x1
    (tapSteps 0 2 (by omega) (by omega) x0 x1 (tapSteps 0 1 (by omega) (by omega) x0 x1 (tapSteps 0 0 (by omega) (by omega) x0 x1
      zeroAcc)))))))))
    shapeCasts_S28x28x64_S1x28x28x64

/-- A load of the whole accumulator right after a store of the whole accumulator reads what was stored. -/
theorem readCov_acc (v : View sig .tc .vmem S28x28x64 .f32) (w : S28x28x64.Idx → Elt F .f32) (L : List (View.Piece (Elt F) S28x28x64 .f32)) :
    v.readCov ((⟨Rect.unit ![0, 0, 0] ![28, 28, 64] inb_S28x28x64_S28x28x64_0_0_0, w⟩ : View.Piece (Elt F) S28x28x64 .f32) :: L)
      (Rect.unit ![0, 0, 0] ![28, 28, 64] inb_S28x28x64_S28x28x64_0_0_0).toLoadRect = w :=
  View.readCov_cons_whole v zeros3 _ w L

set_option maxHeartbeats 1000000 in
/-- The block the run leaves in the output's staging buffer is `bodyVal` of the two input blocks: every load of the
    accumulator reads the store before it, and what remains is the body's arithmetic, stage for stage. -/
theorem out_eq_bodyVal (c : Dev nD) (i : grid0.Coords) (arg1 : Memref sig .tc .vmem S1x30x30x64 .f32) (harg1 : arg1.IsWhole)
    (arg2 : Memref sig .tc .vmem S3x3x64x64 .f32) (harg2 : arg2.IsWhole) (arg3 : Memref sig .tc .vmem S1x28x28x64 .f32) (harg3 : arg3.IsWhole)
    (arg4 : Memref sig .tc .vmem S28x28x64 .f32) (harg4 : arg4.IsWhole)
    (x0 : Vec F S1x30x30x64 .f32) (x1 : Vec F S3x3x64x64 .f32) :
    out0_A_2 c i arg1 harg1 arg2 harg2 arg3 harg3 arg4 harg4 x0 x1 = bodyVal x0 x1 := by
  unfold out0_A_2
  rw [View.read_writes_eq_canon _ _ _ (cover0_A_2 c i arg1 harg1 arg2 harg2 arg3 harg3 arg4 harg4 x0 x1)]
  unfold kernelRun0_A
  dsimp only
  rw [View.canon_unit_zero zeros4]
  simp only [kernelRun0_A.sl.v14, kernelRun0_A.sl.v29, kernelRun0_A.sl.v44, kernelRun0_A.sl.v59, kernelRun0_A.sl.v76, kernelRun0_A.sl.v91, kernelRun0_A.sl.v106, kernelRun0_A.sl.v121, kernelRun0_A.sl.v138, kernelRun0_A.sl.v153, kernelRun0_A.sl.v168, kernelRun0_A.sl.v183, kernelRun0_A.sl.v200, kernelRun0_A.sl.v215, kernelRun0_A.sl.v230, kernelRun0_A.sl.v245, kernelRun0_A.sl.v262, kernelRun0_A.sl.v277, kernelRun0_A.sl.v292, kernelRun0_A.sl.v307, kernelRun0_A.sl.v324, kernelRun0_A.sl.v339, kernelRun0_A.sl.v354, kernelRun0_A.sl.v369, kernelRun0_A.sl.v386, kernelRun0_A.sl.v401, kernelRun0_A.sl.v416, kernelRun0_A.sl.v431, kernelRun0_A.sl.v448, kernelRun0_A.sl.v463, kernelRun0_A.sl.v478, kernelRun0_A.sl.v493, kernelRun0_A.sl.v510, kernelRun0_A.sl.v525, kernelRun0_A.sl.v540, kernelRun0_A.sl.v555, kernelRun0_A.sl.v562, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25, kernelRun0_A.sl.HS0_26, kernelRun0_A.sl.HS0_27, kernelRun0_A.sl.HS0_28, kernelRun0_A.sl.HS0_29, kernelRun0_A.sl.HS0_30, kernelRun0_A.sl.HS0_31, kernelRun0_A.sl.HS0_32, kernelRun0_A.sl.HS0_33, kernelRun0_A.sl.HS0_34, kernelRun0_A.sl.HS0_35, kernelRun0_A.sl.HS0_36, kernelRun0_A.sl.HS0_37, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_3, kernelRun0_A.sl.r_4, kernelRun0_A.sl.r_5, kernelRun0_A.sl.r_6, kernelRun0_A.sl.r_7, kernelRun0_A.sl.r_8, kernelRun0_A.sl.r_9, readCov_acc, View.readAt_eq_ld, Memref.IsWhole.read_unread]
  rfl

end Cert.Adder.Kernel

end
-- ==== Proof.AdderSpec.lean ====
/-
  The mathematics of the L1-distance ("adder") convolution, with no program in sight.

  Every output entry is the nine taps of a 3×3 window subtracted from zero, one after the other; a tap is the sum over
  the 64 input channels of the distance |x − w| between a padded input entry and a weight entry.  One arrangement
  subtracts a tap whole (`conv9`); the other subtracts it in four chunks of sixteen channels (`conv36`).  A distance is
  `max a (−a)`, hence never below zero on the extended reals, so no partial sum is −∞ and
  `x − (a + b) = x − a − b` holds for the sums involved: the two arrangements are one number (`conv36_eq_conv9`).
-/
import Idealize.ShloMosaic.PureOps.Ideal
import Idealize.ShloMosaic.PureOps.Ideal.Laws
import Idealize.ShloMosaic.Lib.ValueIdx

noncomputable section

namespace Cert.Adder

open Idealize.ShloMosaic Idealize.ShloMosaic.ValueIdx
open scoped BigOperators

/-- The distance |a − b| on the extended reals: `max (a − b) (−(a − b))`. -/
def dist (a b : EReal) : EReal := max (a - b) (-(a - b))

/-- A distance is never below zero: either `0 ≤ a − b` or `0 ≤ −(a − b)`. -/
theorem dist_nonneg (a b : EReal) : 0 ≤ dist a b := by
  unfold dist
  rcases le_total 0 (a - b) with h | h
  · exact le_max_of_le_left h
  · exact le_max_of_le_right (EReal.neg_nonneg.mpr h)

/-- The sum of `f` over the sixteen channels `o, …, o + 15`. -/
def chunk (f : Fin 64 → EReal) (o : ℕ) (ho : o + 16 ≤ 64) : EReal :=
  ∑ k : Fin 16, f ⟨o + k.val, by have := k.isLt; omega⟩

theorem chunk_nonneg {f : Fin 64 → EReal} (hf : ∀ c, 0 ≤ f c) (o : ℕ) (ho : o + 16 ≤ 64) : 0 ≤ chunk f o ho :=
  Finset.sum_nonneg fun _ _ => hf _

/-- The sum over all 64 channels is the sum of the four chunks of sixteen. -/
theorem sum_eq_chunks (f : Fin 64 → EReal) :
    ∑ c : Fin 64, f c = chunk f 0 (by omega) + chunk f 16 (by omega) + chunk f 32 (by omega) + chunk f 48 (by omega) := by
  have e : ∑ c : Fin 64, f c
      = ∑ q : Fin 4, ∑ k : Fin 16, f ⟨16 * q.val + k.val, by have := q.isLt; have := k.isLt; omega⟩ := by
    rw [← Finset.sum_product', Finset.univ_product_univ]
    refine (Fintype.sum_equiv (finProdFinEquiv (m := 4) (n := 16)) _ _ fun p => ?_).symm
    refine congrArg f (Fin.ext ?_)
    show 16 * p.1.val + p.2.val = p.2.val + 16 * p.1.val
    omega
  rw [e, Fin.sum_univ_four]
  unfold chunk
  refine congrArg₂ (· + ·) (congrArg₂ (· + ·) (congrArg₂ (· + ·) ?_ ?_) ?_) ?_ <;>
    exact Finset.sum_congr rfl fun k _ => congrArg f (Fin.ext (by simp))

/-- Subtracting a sum of two terms neither of which is −∞ is subtracting them one after the other. -/
theorem sub_add_of_nonneg {x a b : EReal} (ha : 0 ≤ a) (hb : 0 ≤ b) : x - (a + b) = x - a - b := by
  have ha' : a ≠ ⊥ := fun h => by rw [h] at ha; exact absurd ha (by simp)
  have hb' : b ≠ ⊥ := fun h => by rw [h] at hb; exact absurd hb (by simp)
  rw [sub_eq_add_neg, EReal.neg_add (Or.inl ha') (Or.inr hb'), sub_eq_add_neg, sub_eq_add_neg, sub_eq_add_neg, add_assoc]

/-- One tap subtracted from `x` in its four chunks. -/
def subTap (f : Fin 64 → EReal) (x : EReal) : EReal :=
  x - chunk f 0 (by omega) - chunk f 16 (by omega) - chunk f 32 (by omega) - chunk f 48 (by omega)

/-- One tap subtracted chunk by chunk is the tap subtracted whole (the whole tap written as the host writes a
    sum: from the initial value zero). -/
theorem subTap_eq {f : Fin 64 → EReal} (hf : ∀ c, 0 ≤ f c) (x : EReal) :
    subTap f x = x - (0 + ∑ c : Fin 64, f c) := by
  have h0 := chunk_nonneg hf 0 (by omega)
  have h1 := chunk_nonneg hf 16 (by omega)
  have h2 := chunk_nonneg hf 32 (by omega)
  have h3 := chunk_nonneg hf 48 (by omega)
  unfold subTap
  rw [zero_add, sum_eq_chunks, sub_add_of_nonneg (add_nonneg (add_nonneg h0 h1) h2) h3,
    sub_add_of_nonneg (add_nonneg h0 h1) h2, sub_add_of_nonneg h0 h1]

/-- The nine taps subtracted from zero in window order, each tap whole. -/
def conv9 (d : Fin 3 → Fin 3 → Fin 64 → EReal) : EReal :=
  0 - (0 + ∑ c, d 0 0 c) - (0 + ∑ c, d 0 1 c) - (0 + ∑ c, d 0 2 c)
    - (0 + ∑ c, d 1 0 c) - (0 + ∑ c, d 1 1 c) - (0 + ∑ c, d 1 2 c)
    - (0 + ∑ c, d 2 0 c) - (0 + ∑ c, d 2 1 c) - (0 + ∑ c, d 2 2 c)

/-- The nine taps subtracted from zero in window order, each in its four chunks. -/
def conv36 (d : Fin 3 → Fin 3 → Fin 64 → EReal) : EReal :=
  subTap (d 2 2) (subTap (d 2 1) (subTap (d 2 0) (subTap (d 1 2) (subTap (d 1 1) (subTap (d 1 0)
    (subTap (d 0 2) (subTap (d 0 1) (subTap (d 0 0) 0))))))))

/-- The two arrangements agree when every term is a distance (never below zero). -/
theorem conv36_eq_conv9 {d : Fin 3 → Fin 3 → Fin 64 → EReal} (hd : ∀ a b c, 0 ≤ d a b c) : conv36 d = conv9 d := by
  unfold conv36 conv9
  rw [subTap_eq (hd 0 0), subTap_eq (hd 0 1), subTap_eq (hd 0 2), subTap_eq (hd 1 0), subTap_eq (hd 1 1),
    subTap_eq (hd 1 2), subTap_eq (hd 2 0), subTap_eq (hd 2 1), subTap_eq (hd 2 2)]

/-- Row (or column) `i` of the output meets row `i + k` of the padded input under tap offset `k`. -/
def shift (i : Fin 28) (k : Fin 3) : Fin 30 := ⟨i.val + k.val, by have := i.isLt; have := k.isLt; omega⟩

/-- The distances one output entry (n, co, i, j) is made of: tap (kh, kw), input channel c ↦
    |XP[n, c, i + kh, j + kw] − W[co, c, kh, kw]|, over the padded input `XP` and the weight `W`. -/
def terms (XP : (⟨4, ![16, 64, 30, 30]⟩ : Shape).Idx → EReal) (W : (⟨4, ![64, 64, 3, 3]⟩ : Shape).Idx → EReal)
    (n : Fin 16) (co : Fin 64) (i j : Fin 28) : Fin 3 → Fin 3 → Fin 64 → EReal :=
  fun kh kw c => dist (XP (ix4 n c (shift i kh) (shift j kw))) (W (ix4 co c kh kw))

theorem terms_nonneg (XP W) (n : Fin 16) (co : Fin 64) (i j : Fin 28) (kh kw : Fin 3) (c : Fin 64) :
    0 ≤ terms XP W n co i j kh kw c := dist_nonneg _ _

/-- The convolution as one function of the padded input and the weight, in the whole-tap arrangement. -/
def out9 (XP : (⟨4, ![16, 64, 30, 30]⟩ : Shape).Idx → EReal) (W : (⟨4, ![64, 64, 3, 3]⟩ : Shape).Idx → EReal) :
    (⟨4, ![16, 64, 28, 28]⟩ : Shape).Idx → EReal :=
  fun o => conv9 (terms XP W (o 0) (o 1) (o 2) (o 3))

/-- The same in the chunked arrangement. -/
def out36 (XP : (⟨4, ![16, 64, 30, 30]⟩ : Shape).Idx → EReal) (W : (⟨4, ![64, 64, 3, 3]⟩ : Shape).Idx → EReal) :
    (⟨4, ![16, 64, 28, 28]⟩ : Shape).Idx → EReal :=
  fun o => conv36 (terms XP W (o 0) (o 1) (o 2) (o 3))

/-- The two arrangements are one array. -/
theorem out36_eq_out9 (XP W) : out36 XP W = out9 XP W :=
  funext fun o => conv36_eq_conv9 (terms_nonneg XP W (o 0) (o 1) (o 2) (o 3))

end Cert.Adder

end
-- ==== Proof.AdderBodyAt.lean ====
/-
  The kernel body's output block read entry by entry, on the extended reals.

  Entry (0, i, j, co) of `bodyVal x0 x1` is the nine taps subtracted from zero, each in its four chunks
  (`Adder.conv36`), of the distances |x0[0, i + kh, j + kw, c] − x1[kh, kw, c, co]|: one step reads as "the accumulator
  minus the sum over its sixteen channels of |window − weight|" (`chunkStep_apply`: the lane sum over the chunk axis is
  a finite sum, the two broadcasts pick the window's channel and the weight's row), the window and the weight rows
  read where the tap and the chunk place them (`tapWin_apply`, `wLoad_apply`).
-/
import proofs.«155229_j65867618451686_2_alg».proof.Proof.AdderBody
import proofs.«155229_j65867618451686_2_alg».proof.Proof.AdderSpec
import Idealize.ShloMosaic.Lib.ValueIdx
import Idealize.ShloMosaic.PureOps.Ideal.Laws

set_option maxRecDepth 16384

noncomputable section

namespace Cert.Adder.Kernel

open Cert.KernelIdeal Cert.KernelIdeal.Gen
open Idealize.ShloMosaic Idealize.ShloMosaic.ValueIdx
open scoped BigOperators

/-- The window of tap (kh, kw) at (a, b, ch) is the image at (0, a + kh, b + kw, ch). -/
theorem tapWin_apply (kh kw : ℕ) (hk : kh ≤ 2) (hw : kw ≤ 2) (x0 : Vec Ideal S1x30x30x64 .f32) (a b : Fin 28) (ch : Fin 64) :
    tapWin kh kw hk hw x0 (ix3 a b ch)
      = x0 (ix4 (0 : Fin 1) (⟨a.val + kh, by have := a.isLt; omega⟩ : Fin 30) (⟨b.val + kw, by have := b.isLt; omega⟩ : Fin 30) ch) := by
  unfold tapWin
  refine (shapeCast_dropUnit_apply ![28, 28, 64] _ shapeCasts_S1x28x28x64_S28x28x64 (ix3 a b ch)).trans ?_
  show x0 ((Rect.unit (s := S1x30x30x64) ![0, kh, kw, 0] S1x28x28x64.size (inbWin kh kw hk hw)).idx (Fin.cons ⟨0, Nat.one_pos⟩ (ix3 a b ch))) = _
  refine congrArg x0 (funext fun d => Fin.ext ?_)
  match d with
  | ⟨0, _⟩ => rfl
  | ⟨1, _⟩ => show kh + 1 * a.val = a.val + kh; omega
  | ⟨2, _⟩ => show kw + 1 * b.val = b.val + kw; omega
  | ⟨3, _⟩ => show 0 + 1 * ch.val = ch.val; omega

/-- Row `k` of the sixteen weight rows from `o` of tap (kh, kw), at output channel `co`, is the weight at
    (kh, kw, o + k, co). -/
theorem wLoad_apply (kh kw o : ℕ) (hk : kh ≤ 2) (hw : kw ≤ 2) (ho : o + 16 ≤ 64) (x1 : Vec Ideal S3x3x64x64 .f32)
    (k : Fin 16) (co : Fin 64) :
    wLoad kh kw o hk hw ho x1 (ix4 (0 : Fin 1) (0 : Fin 1) k co)
      = x1 (ix4 (⟨kh, by omega⟩ : Fin 3) (⟨kw, by omega⟩ : Fin 3) (⟨o + k.val, by have := k.isLt; omega⟩ : Fin 64) co) := by
  unfold wLoad
  show x1 ((Rect.unit (s := S3x3x64x64) ![kh, kw, o, 0] S1x1x16x64.size (inbW kh kw o hk hw ho)).idx (ix4 (0 : Fin 1) (0 : Fin 1) k co)) = _
  refine congrArg x1 (funext fun d => Fin.ext ?_)
  match d with
  | ⟨0, _⟩ => show kh + 1 * 0 = kh; omega
  | ⟨1, _⟩ => show kw + 1 * 0 = kw; omega
  | ⟨2, _⟩ => show o + 1 * k.val = o + k.val; omega
  | ⟨3, _⟩ => show 0 + 1 * co.val = co.val; omega

/-- One step at (i, j, co): the accumulator there minus the sum over the chunk's sixteen channels of
    |window(i, j, o + k) − weight row(k, co)|. -/
theorem chunkStep_apply (o : ℕ) (ho : o + 16 ≤ 64) (hs : S28x28x64.Slices ![0, 0, o] S28x28x16)
    (xs : FVec Ideal S28x28x64 .f32) (w : Vec Ideal S1x1x16x64 .f32) (acc : FVec Ideal S28x28x64 .f32)
    (i j : Fin 28) (co : Fin 64) :
    chunkStep o hs xs w acc (ix3 i j co)
      = acc (ix3 i j co) - ∑ k : Fin 16, Adder.dist (xs (ix3 i j (⟨o + k.val, by have := k.isLt; omega⟩ : Fin 64)))
          (w (ix4 (0 : Fin 1) (0 : Fin 1) k co)) := by
  unfold chunkStep
  rw [shapeCast_self]
  show acc (ix3 i j co) - multiReduction .add [2] S28x28x64 _ 0x00000000#32 reduces_S28x28x16x64_S28x28x64 (.inl rfl) rfl (ix3 i j co) = _
  refine congrArg (acc (ix3 i j co) - ·) ?_
  refine (Ideal.multiReduction_add_single _ 0x00000000#32 reduces_S28x28x16x64_S28x28x64 (.inl rfl) rfl (ix3 i j co)).trans ?_
  refine Finset.sum_congr rfl fun k _ => ?_
  have hl : reduces_S28x28x16x64_S28x28x64.lift (ix3 i j co) k = ix4 i j k co :=
    funext fun a => Fin.ext (by match a with | ⟨0, _⟩ => rfl | ⟨1, _⟩ => rfl | ⟨2, _⟩ => rfl | ⟨3, _⟩ => rfl)
  rw [hl]
  show Adder.dist
      (broadcastTo S28x28x16x64 (shapeCast S28x28x16x1 (extractStridedSlice S28x28x16 ![0, 0, o] xs hs) shapeCasts_S28x28x16_S28x28x16x1)
        broadcasts_S28x28x16x1_S28x28x16x64 (ix4 i j k co))
      (broadcastTo S28x28x16x64 (shapeCast S1x1x16x64 (shapeCast S16x64 w shapeCasts_S1x1x16x64_S16x64) shapeCasts_S16x64_S1x1x16x64)
        broadcasts_S1x1x16x64_S28x28x16x64 (ix4 i j k co)) = _
  refine congrArg₂ Adder.dist ?_ ?_
  · -- the window's channel o + k, whatever the output channel
    refine (broadcastTo_apply _ broadcasts_S28x28x16x1_S28x28x16x64 (ix4 i j k co) (ix4 i j k (0 : Fin 1)) (fun a => ?_)).trans ?_
    · match a with
      | ⟨0, _⟩ => show i.val = if (28 : ℕ) = 1 then 0 else i.val; rw [if_neg (by decide)]
      | ⟨1, _⟩ => show j.val = if (28 : ℕ) = 1 then 0 else j.val; rw [if_neg (by decide)]
      | ⟨2, _⟩ => show k.val = if (16 : ℕ) = 1 then 0 else k.val; rw [if_neg (by decide)]
      | ⟨3, _⟩ => show 0 = if (1 : ℕ) = 1 then 0 else co.val; rw [if_pos rfl]
    refine (shapeCast_apply _ shapeCasts_S28x28x16_S28x28x16x1 (ix4 i j k (0 : Fin 1)) (ix3 i j k) ?_).trans ?_
    · rw [Shape.rowMajor_val_three, Shape.rowMajor_val_four]
      show (i.val * 28 + j.val) * 16 + k.val = ((i.val * 28 + j.val) * 16 + k.val) * 1 + 0
      omega
    refine extractStridedSlice_apply ![0, 0, o] xs hs (ix3 i j k) (ix3 i j (⟨o + k.val, by have : k.val < 16 := k.isLt; omega⟩ : Fin 64)) (fun a => ?_)
    match a with
    | ⟨0, _⟩ => show i.val = 0 + i.val; omega
    | ⟨1, _⟩ => show j.val = 0 + j.val; omega
    | ⟨2, _⟩ => show o + k.val = o + k.val; rfl
  · -- the weight's row k at the output channel, whatever the position
    rw [shapeCast_shapeCast]
    refine broadcastTo_apply w broadcasts_S1x1x16x64_S28x28x16x64 (ix4 i j k co) (ix4 (0 : Fin 1) (0 : Fin 1) k co) (fun a => ?_)
    match a with
    | ⟨0, _⟩ => show 0 = if (1 : ℕ) = 1 then 0 else i.val; rw [if_pos rfl]
    | ⟨1, _⟩ => show 0 = if (1 : ℕ) = 1 then 0 else j.val; rw [if_pos rfl]
    | ⟨2, _⟩ => show k.val = if (16 : ℕ) = 1 then 0 else k.val; rw [if_neg (by decide)]
    | ⟨3, _⟩ => show co.val = if (64 : ℕ) = 1 then 0 else co.val; rw [if_neg (by decide)]

/-- The distances of tap (kh, kw) at output entry (i, j, co): channel c ↦ |x0[0, i + kh, j + kw, c] − x1[kh, kw, c, co]|. -/
def tapTerms (x0 : Vec Ideal S1x30x30x64 .f32) (x1 : Vec Ideal S3x3x64x64 .f32) (i j : Fin 28) (co : Fin 64)
    (kh kw : Fin 3) : Fin 64 → EReal :=
  fun c => Adder.dist (x0 (ix4 (0 : Fin 1) (Adder.shift i kh) (Adder.shift j kw) c)) (x1 (ix4 kh kw c co))

/-- The four steps of one tap subtract the tap, in its four chunks, from the accumulator. -/
theorem tapSteps_apply (kh kw : ℕ) (hk : kh ≤ 2) (hw : kw ≤ 2) (x0 : Vec Ideal S1x30x30x64 .f32) (x1 : Vec Ideal S3x3x64x64 .f32)
    (acc : FVec Ideal S28x28x64 .f32) (i j : Fin 28) (co : Fin 64) :
    tapSteps kh kw hk hw x0 x1 acc (ix3 i j co)
      = Adder.subTap (tapTerms x0 x1 i j co ⟨kh, by omega⟩ ⟨kw, by omega⟩) (acc (ix3 i j co)) := by
  unfold tapSteps
  rw [chunkStep_apply 48 (by omega), chunkStep_apply 32 (by omega), chunkStep_apply 16 (by omega), chunkStep_apply 0 (by omega)]
  simp only [tapWin_apply, wLoad_apply]
  rfl

/-- The accumulator starts at zero. -/
theorem zeroAcc_apply (p : S28x28x64.Idx) : zeroAcc (F := Ideal) p = 0 := by
  unfold zeroAcc
  rw [shapeCast_self]
  exact Ideal.ofBits_zero_f32

/-- Entry (0, i, j, co) of the output block. -/
theorem bodyVal_apply (x0 : Vec Ideal S1x30x30x64 .f32) (x1 : Vec Ideal S3x3x64x64 .f32) (i j : Fin 28) (co : Fin 64) :
    bodyVal x0 x1 (ix4 (0 : Fin 1) i j co) = Adder.conv36 (tapTerms x0 x1 i j co) := by
  unfold bodyVal
  refine (shapeCast_apply _ shapeCasts_S28x28x64_S1x28x28x64 (ix4 (0 : Fin 1) i j co) (ix3 i j co) ?_).trans ?_
  · rw [Shape.rowMajor_val_three, Shape.rowMajor_val_four]
    show (i.val * 28 + j.val) * 64 + co.val = (((0 : Fin 1).val * 28 + i.val) * 28 + j.val) * 64 + co.val
    simp
  rw [tapSteps_apply, tapSteps_apply, tapSteps_apply, tapSteps_apply, tapSteps_apply, tapSteps_apply, tapSteps_apply,
    tapSteps_apply, tapSteps_apply, zeroAcc_apply]
  rfl

end Cert.Adder.Kernel

end
-- ==== Proof.AdderKernelValue.lean ====
/-
  What the kernel program leaves in its result array, as one function of the two argument arrays.

  Before the grid the host pads the input with a border of zeros, moves the channel axis last (image, row, column,
  channel), and lays the weight out as (tap row, tap column, input channel, output channel).  Grid point `n` stages image
  `n` of the padded input and the whole weight, runs the body, and writes its [1, 28, 28, 64] block back as image `n` of a
  (image, row, column, output channel) array; the sixteen blocks tile that array.  After the grid the host moves the
  output-channel axis back to second place.  Reading the three transpositions at an index and the body's block by
  `bodyVal_apply`, entry (n, co, i, j) of the result is the chunked arrangement `Adder.out36` of the padded input and
  the weight.
-/
import proofs.«155229_j65867618451686_2_alg».proof.Proof.AdderBodyAt
import Idealize.ShloMosaic.Lib.StableHlo.Run

set_option maxRecDepth 16384

noncomputable section

namespace Cert.Adder.Kernel

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The input with its border of zeros, as the host pads it. -/
def padded (x : FVec Ideal S16x64x28x28 .f32) : FVec Ideal S16x64x30x30 .f32 :=
  pad S16x64x30x30 ![0, 0, 1, 1] ![0, 0, 1, 1] ![0, 0, 0, 0] x (sitofp .f32 (constantI S_ 32 0#32))
    pads_S16x64x28x28_S16x64x30x30_000_000_110_110 h_S_

/-- The padded input of core `c`'s launch memory, and its weight. -/
abbrev XP (c : Dev nD) : FVec Ideal S16x64x30x30 .f32 := padded (m ((c : Thread nD τ).loc main_arg0))
abbrev WT (c : Dev nD) : FVec Ideal S64x64x3x3 .f32 := m ((c : Thread nD τ).loc main_arg1)

/-! ## The arrays the region finds -/

/-- The region's first array is the padded input with the channel axis moved last. -/
theorem V_image (c : Dev nD) :
    (V m c main_v1 : S16x30x30x64.Idx → EReal)
      = transpose S16x30x30x64 [0, 2, 3, 1] (XP m c) transposes_S16x64x30x30_S16x30x30x64_0_2_3_1 := by
  dsimp only [V, V0]
  simp only [hostOps0, hostOps0_1, hostOps0_2, List.flatten_cons, List.flatten_nil, List.append_nil, List.cons_append, List.nil_append]
  after_results
  rfl

/-- Its second array is the weight laid out (tap row, tap column, input channel, output channel). -/
theorem V_weight (c : Dev nD) :
    (V m c main_v2 : S3x3x64x64.Idx → EReal)
      = transpose S3x3x64x64 [2, 3, 1, 0] (WT m c) transposes_S64x64x3x3_S3x3x64x64_2_3_1_0 := by
  dsimp only [V, V0]
  simp only [hostOps0, hostOps0_1, hostOps0_2, List.flatten_cons, List.flatten_nil, List.append_nil, List.cons_append, List.nil_append]
  after_results

/-- Entry (n, r, s, ch) of the first array is the padded input at (n, ch, r, s). -/
theorem V_image_apply (c : Dev nD) (n : Fin 16) (r s : Fin 30) (ch : Fin 64) :
    (V m c main_v1 : S16x30x30x64.Idx → EReal) (ix4 n r s ch) = XP m c (ix4 n ch r s) := by
  rw [V_image]
  exact transpose_apply _ _ transposes_S16x64x30x30_S16x30x30x64_0_2_3_1 (ix4 n r s ch) (ix4 n ch r s)
    (fun b => by match b with | ⟨0, _⟩ => rfl | ⟨1, _⟩ => rfl | ⟨2, _⟩ => rfl | ⟨3, _⟩ => rfl)

/-- Entry (kh, kw, ci, co) of the second array is the weight at (co, ci, kh, kw). -/
theorem V_weight_apply (c : Dev nD) (kh kw : Fin 3) (ci co : Fin 64) :
    (V m c main_v2 : S3x3x64x64.Idx → EReal) (ix4 kh kw ci co) = WT m c (ix4 co ci kh kw) := by
  rw [V_weight]
  exact transpose_apply _ _ transposes_S64x64x3x3_S3x3x64x64_2_3_1_0 (ix4 kh kw ci co) (ix4 co ci kh kw)
    (fun b => by match b with | ⟨0, _⟩ => rfl | ⟨1, _⟩ => rfl | ⟨2, _⟩ => rfl | ⟨3, _⟩ => rfl)

/-! ## The blocks -/

/-- The printed index maps over the sixteen grid points: image `t` of the first array and of the result, the whole weight. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- A grid point is one of the sixteen images. -/
theorem lt16 (t : Fin cfg0.N) : t.val < 16 := by
  have h := t.isLt
  have hN : cfg0.N = 16 := N_0
  omega

/-- The image grid point `t` works on. -/
def img (t : Fin cfg0.N) : Fin 16 := ⟨t.val, lt16 t⟩

/-- The entry (n, co, i, j) of the convolution in its chunked arrangement, as the region's result array stores it: at
    (n, i, j, co). -/
def blockFn (c : Dev nD) : S16x28x28x64.Idx → EReal :=
  fun p => Adder.conv36 (Adder.terms (XP m c) (WT m c) (p 0) (p 3) (p 1) (p 2))

/-- A body run on image `n` of the first array and on the second array leaves, at block entry `y`, the convolution's
    entry at the array index `p` that `y` sits at. Stated over plain vectors and indices. -/
theorem block_entry (c : Dev nD) (x0 : Vec Ideal S1x30x30x64 .f32) (x1 : Vec Ideal S3x3x64x64 .f32) (n : Fin 16)
    (h0 : ∀ (r s : Fin 30) (ch : Fin 64), x0 (ix4 (0 : Fin 1) r s ch) = XP m c (ix4 n ch r s))
    (h1 : ∀ (kh kw : Fin 3) (ci co : Fin 64), x1 (ix4 kh kw ci co) = WT m c (ix4 co ci kh kw))
    (y : S1x28x28x64.Idx) (p : S16x28x28x64.Idx)
    (hp0 : (p 0).val = n.val) (hp1 : (p 1).val = (y 1).val) (hp2 : (p 2).val = (y 2).val) (hp3 : (p 3).val = (y 3).val) :
    bodyVal x0 x1 y = blockFn m c p := by
  obtain ⟨y0, i, j, co, rfl⟩ : ∃ (y0 : Fin 1) (i j : Fin 28) (co : Fin 64), y = ix4 y0 i j co := ⟨y 0, y 1, y 2, y 3, eq_ix4 y⟩
  obtain rfl : y0 = 0 := Subsingleton.elim _ _
  obtain ⟨pn, pi, pj, pc, rfl⟩ : ∃ (pn : Fin 16) (pi pj : Fin 28) (pc : Fin 64), p = ix4 pn pi pj pc := ⟨p 0, p 1, p 2, p 3, eq_ix4 p⟩
  obtain rfl : pn = n := Fin.ext hp0
  obtain rfl : pi = i := Fin.ext hp1
  obtain rfl : pj = j := Fin.ext hp2
  obtain rfl : pc = co := Fin.ext hp3
  rw [bodyVal_apply]
  unfold blockFn
  refine congrArg Adder.conv36 (funext fun kh => funext fun kw => funext fun ci => ?_)
  show Adder.dist (x0 _) (x1 _) = Adder.dist (XP m c _) (WT m c _)
  rw [h0, h1]

/-- Entry (0, r, s, ch) of the first window's block at point `t` is the first array at (t, r, s, ch). -/
theorem image_block (c : Dev nD) (t : Fin cfg0.N) (r s : Fin 30) (ch : Fin 64) :
    (iblk m c 0 t : Vec Ideal S1x30x30x64 .f32) (ix4 (0 : Fin 1) r s ch)
      = (V m c main_v1 : S16x30x30x64.Idx → EReal) (ix4 (img t) r s ch) := by
  obtain ⟨e0, e1, e2, e3, -⟩ := idx_facts t
  unfold iblk
  rw [View.read_apply]
  show V m c main_v1 _ = V m c main_v1 _
  refine congrArg (V m c main_v1) (funext fun a => Fin.ext ?_)
  match a with
  | ⟨0, _⟩ => show win0_0.index t (0 : Fin 4) * 1 + 1 * 0 = t.val; omega
  | ⟨1, _⟩ => show win0_0.index t (1 : Fin 4) * 30 + 1 * r.val = r.val; omega
  | ⟨2, _⟩ => show win0_0.index t (2 : Fin 4) * 30 + 1 * s.val = s.val; omega
  | ⟨3, _⟩ => show win0_0.index t (3 : Fin 4) * 64 + 1 * ch.val = ch.val; omega

/-- The second window's block at any point is the second array. -/
theorem weight_block (c : Dev nD) (t : Fin cfg0.N) (kh kw : Fin 3) (ci co : Fin 64) :
    (iblk m c 1 t : Vec Ideal S3x3x64x64 .f32) (ix4 kh kw ci co) = (V m c main_v2 : S3x3x64x64.Idx → EReal) (ix4 kh kw ci co) := by
  obtain ⟨-, -, -, -, e0, e1, e2, e3, -⟩ := idx_facts t
  unfold iblk
  rw [View.read_apply]
  show V m c main_v2 _ = V m c main_v2 _
  refine congrArg (V m c main_v2) (funext fun a => Fin.ext ?_)
  match a with
  | ⟨0, _⟩ => show win0_1.index t (0 : Fin 4) * 3 + 1 * kh.val = kh.val; omega
  | ⟨1, _⟩ => show win0_1.index t (1 : Fin 4) * 3 + 1 * kw.val = kw.val; omega
  | ⟨2, _⟩ => show win0_1.index t (2 : Fin 4) * 64 + 1 * ci.val = ci.val; omega
  | ⟨3, _⟩ => show win0_1.index t (3 : Fin 4) * 64 + 1 * co.val = co.val; omega

/-- What point `t` writes back is block `t` of `blockFn`. -/
theorem flushed_eq (c : Dev nD) (t : Fin cfg0.N) :
    (dats m 0 c).flushed 2 t = ((cfg0.win 2).blk t).view.read (Elt Ideal) (blockFn m c) := by
  show (cfg0.win 2).cut (grid0.coords t) ((dats m 0 c).after 2 t) = _
  rw [after0_2]
  unfold outsAt0
  rw [out_eq_bodyVal]
  obtain ⟨-, -, -, -, -, -, -, -, e0, e1, e2, e3⟩ := idx_facts t
  funext y
  show bodyVal (iblk m c 0 t) (iblk m c 1 t) y = blockFn m c (((cfg0.win 2).blk t).view.emb y)
  refine block_entry m c _ _ (img t)
    (fun r s ch => (image_block m c t r s ch).trans (V_image_apply m c _ r s ch))
    (fun kh kw ci co => (weight_block m c t kh kw ci co).trans (V_weight_apply m c kh kw ci co)) y _ ?_ ?_ ?_ ?_
  · show win0_2.index t (0 : Fin 4) * 1 + 1 * (y 0).val = t.val
    have : (y 0).val < 1 := (y 0).isLt
    omega
  · show win0_2.index t (1 : Fin 4) * 28 + 1 * (y 1).val = (y 1).val; omega
  · show win0_2.index t (2 : Fin 4) * 28 + 1 * (y 2).val = (y 2).val; omega
  · show win0_2.index t (3 : Fin 4) * 64 + 1 * (y 3).val = (y 3).val; omega

/-- An index of the result array is in point `t`'s block iff each coordinate is in the block's range on its axis. -/
theorem mem_blk (t : Fin cfg0.N) (i : S16x28x28x64.Idx) :
    i ∈ ((cfg0.win 2).blk t).view.set ↔ ∀ a : Fin 4, win0_2.index t a * S1x28x28x64.size a ≤ (i a).val
      ∧ (i a).val < win0_2.index t a * S1x28x28x64.size a + S1x28x28x64.size a := by
  show i ∈ ((View.whole main_v3).slice (win0_2.rect t)).set ↔ _
  rw [View.set_slice_whole, Rect.mem_set_unit]
  exact Iff.rfl

/-- The sixteen blocks cover the result array: image `n` is point `n`'s. -/
theorem cover (i : S16x28x28x64.Idx) : ∃ t : Fin cfg0.N, (cfg0.win 2).flush t = true ∧ i ∈ ((cfg0.win 2).blk t).view.set := by
  have h0 : (i 0).val < 16 := (i 0).isLt
  have h1 : (i 1).val < 28 := (i 1).isLt
  have h2 : (i 2).val < 28 := (i 2).isLt
  have h3 : (i 3).val < 64 := (i 3).isLt
  let t : Fin cfg0.N := ⟨(i 0).val, by have hN : cfg0.N = 16 := N_0; omega⟩
  obtain ⟨-, -, -, -, -, -, -, -, e0, e1, e2, e3⟩ := idx_facts t
  have et : t.val = (i 0).val := rfl
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 28 ≤ (i 1).val ∧ (i 1).val < win0_2.index t (1 : Fin 4) * 28 + 28; omega
  | ⟨2, _⟩ => show win0_2.index t (2 : Fin 4) * 28 ≤ (i 2).val ∧ (i 2).val < win0_2.index t (2 : Fin 4) * 28 + 28; omega
  | ⟨3, _⟩ => show win0_2.index t (3 : Fin 4) * 64 ≤ (i 3).val ∧ (i 3).val < win0_2.index t (3 : Fin 4) * 64 + 64; omega

/-- The region's result array after the grid. -/
theorem final (c : Dev nD) : (dats m 0 c).arrAt 2 cfg0.N = blockFn m c :=
  (dats m 0 c).arrAt_eq_of_cover 2 (blockFn m c) (fun t _ => flushed_eq m c t) cover

/-! ## After the grid -/

/-- The program's result: the region's result array with the output-channel axis moved back to second place. -/
theorem tail_eq (c : Dev nD) :
    (Pipeline.afterTail₀ cfgs (dats m) 0 (V0 m) [hostOps1] c main_v4 : S16x64x28x28.Idx → EReal)
      = transpose S16x64x28x28 [0, 3, 1, 2] (blockFn m c) transposes_S16x28x28x64_S16x64x28x28_0_3_1_2 := by
  unfold Pipeline.afterTail₀
  show StableHlo.after hostOps1 _ (Proc.devRef .tc main_v4) = _
  after_results
  refine congrArg (fun v => transpose S16x64x28x28 [0, 3, 1, 2] v transposes_S16x28x28x64_S16x64x28x28_0_3_1_2) ?_
  exact (Pipeline.withArrays_arr spec0 launch0.win.arr_inj c _ _ 2).trans (final m c)

/-- Entry by entry, the program's result is the convolution in its chunked arrangement. -/
theorem result_eq (c : Dev nD) :
    (Pipeline.afterTail₀ cfgs (dats m) 0 (V0 m) [hostOps1] c main_v4 : S16x64x28x28.Idx → EReal)
      = Adder.out36 (XP m c) (WT m c) := by
  rw [tail_eq]
  funext o
  obtain ⟨n, co, i, j, rfl⟩ : ∃ (n : Fin 16) (co : Fin 64) (i j : Fin 28), o = ix4 n co i j := ⟨o 0, o 1, o 2, o 3, eq_ix4 o⟩
  refine (transpose_apply _ _ transposes_S16x28x28x64_S16x64x28x28_0_3_1_2 (ix4 n co i j) (ix4 n i j co)
    (fun b => by match b with | ⟨0, _⟩ => rfl | ⟨1, _⟩ => rfl | ⟨2, _⟩ => rfl | ⟨3, _⟩ => rfl)).trans ?_
  rfl

/-- The kernel program's run, read: every weakly fair execution ends with the result array at the convolution of the
    padded input and the weight, and the arguments as launched. -/
theorem run : θ_run defs (onTc (τ := τ) (main (F := Ideal))) ⟨m, fun _ => 0, ρ⟩ fun r => ∀ c : Dev nD,
      r.2.mem ((c : Thread nD τ).loc main_v4) = Adder.out36 (XP m c) (WT m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v4 (Pipeline.mem_restRefs_of main_v4 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Adder.Kernel

end
-- ==== Proof.AdderRef.lean ====
/-
  The reference program, read entry by entry on the extended reals.

  The reference pads the input, and then for each of the nine taps in window order slices the padded input and the
  weight at the tap, broadcasts both to [image, output channel, input channel, row, column], takes |difference|, sums
  over the input channel from zero, and subtracts the result from a running array that starts at zero.  `tapR` is one
  tap in the host's own operations and `refOut` the nine subtractions; the reference's result IS `refOut` of the padded
  input and the weight (`ref_eq_refOut`: its operations one after the other are this term).  Read at an entry, a tap is
  zero plus the sum over the 64 input channels of |XP[n, c, a + kh, b + kw] − W[co, c, kh, kw]| (`tapR_apply`), so the
  whole is the whole-tap arrangement `Adder.out9` (`refOut_eq_out9`).  The padding itself is never opened: both
  programs pad alike, and everything here is a function of the padded array.
-/
import proofs.«155229_j65867618451686_2_alg».proof.Proof.Gen.ReferenceIdeal.Read
import proofs.«155229_j65867618451686_2_alg».proof.Proof.AdderSpec
import Idealize.ShloMosaic.Lib.ValueIdx
import Idealize.ShloMosaic.Lib.Pipeline.Value
import Idealize.ShloMosaic.PureOps.Ideal.Laws

set_option maxRecDepth 16384

noncomputable section

namespace Cert.Adder.Ref

open Cert.ReferenceIdeal Cert.ReferenceIdeal.Gen Cert.ReferenceIdeal.Read
open Idealize.ShloMosaic Idealize.ShloMosaic.ValueIdx
open scoped BigOperators

variable {F : FTy → Type} [FloatOps F]

/-- One tap as the host computes it: slice the padded input and the weight at (kh, kw), broadcast both to
    [16, 64, 64, 28, 28], take |difference|, and sum over the input-channel axis from zero. -/
def tapR (kh kw : ℕ) (hsx : S16x64x30x30.Slices ![0, 0, kh, kw] S16x64x28x28) (hsw : S64x64x3x3.Slices ![0, 0, kh, kw] S64x64x1x1)
    (XP : FVec F S16x64x30x30 .f32) (W : FVec F S64x64x3x3 .f32) : FVec F S16x64x28x28 .f32 :=
  Host.reduceAdd
    (Host.absf (subf
      (broadcastInDim S16x64x64x28x28 ![0, 1, 2, 3, 4] bcast_S16x1x64x28x28_S16x64x64x28x28_0_1_2_3_4
        (broadcastInDim S16x1x64x28x28 ![0, 2, 3, 4] bcast_S16x64x28x28_S16x1x64x28x28_0_2_3_4
          (extractStridedSlice S16x64x28x28 ![0, 0, kh, kw] XP hsx)))
      (broadcastInDim S16x64x64x28x28 ![0, 1, 2, 3, 4] bcast_S1x64x64x1x1_S16x64x64x28x28_0_1_2_3_4
        (broadcastInDim S1x64x64x1x1 ![1, 2] bcast_S64x64_S1x64x64x1x1_1_2
          (shapeCast _ (extractStridedSlice S64x64x1x1 ![0, 0, kh, kw] W hsw) shapeCasts_S64x64x1x1_S64x64)))))
    (constant S_ .f32 0x00000000#32) reducesTo_S16x64x64x28x28_S16x64x28x28_d2 h_S_

/-- The running array the taps are subtracted from: zero everywhere. -/
def zerosR : FVec F S16x64x28x28 .f32 :=
  broadcastInDim S16x64x28x28 ![] bcast_S_S16x64x28x28 (constant S_ .f32 0x00000000#32)

/-- The nine taps subtracted from zero in window order. -/
def refOut (XP : FVec F S16x64x30x30 .f32) (W : FVec F S64x64x3x3 .f32) : FVec F S16x64x28x28 .f32 :=
  subf (subf (subf (subf (subf (subf (subf (subf (subf zerosR
    (tapR 0 0 slices_S16x64x30x30_S16x64x28x28_0_0_0_0 slices_S64x64x3x3_S64x64x1x1_0_0_0_0 XP W))
    (tapR 0 1 slices_S16x64x30x30_S16x64x28x28_0_0_0_1 slices_S64x64x3x3_S64x64x1x1_0_0_0_1 XP W))
    (tapR 0 2 slices_S16x64x30x30_S16x64x28x28_0_0_0_2 slices_S64x64x3x3_S64x64x1x1_0_0_0_2 XP W))
    (tapR 1 0 slices_S16x64x30x30_S16x64x28x28_0_0_1_0 slices_S64x64x3x3_S64x64x1x1_0_0_1_0 XP W))
    (tapR 1 1 slices_S16x64x30x30_S16x64x28x28_0_0_1_1 slices_S64x64x3x3_S64x64x1x1_0_0_1_1 XP W))
    (tapR 1 2 slices_S16x64x30x30_S16x64x28x28_0_0_1_2 slices_S64x64x3x3_S64x64x1x1_0_0_1_2 XP W))
    (tapR 2 0 slices_S16x64x30x30_S16x64x28x28_0_0_2_0 slices_S64x64x3x3_S64x64x1x1_0_0_2_0 XP W))
    (tapR 2 1 slices_S16x64x30x30_S16x64x28x28_0_0_2_1 slices_S64x64x3x3_S64x64x1x1_0_0_2_1 XP W))
    (tapR 2 2 slices_S16x64x30x30_S16x64x28x28_0_0_2_2 slices_S64x64x3x3_S64x64x1x1_0_0_2_2 XP W)

/-- The reference's result is `refOut` of the padded input and the weight: its operations, one after the other, are this term. -/
theorem ref_eq_refOut (x0 : FVec F S16x64x28x28 .f32) (x1 : FVec F S64x64x3x3 .f32) :
    val_main_v100 (F := F) x0 x1 = refOut (val_main_v0 (F := F) x0) x1 := rfl

/-- The host's sum over the input-channel axis, from zero, at an entry. -/
theorem reduceCi_apply (y : FVec Ideal S16x64x64x28x28 .f32) (n : Fin 16) (co : Fin 64) (a b : Fin 28) :
    Host.reduceAdd y (constant S_ .f32 0x00000000#32) reducesTo_S16x64x64x28x28_S16x64x28x28_d2 h_S_ (ix4 n co a b)
      = 0 + ∑ c : Fin 64, y (ix5 n co c a b) := by
  simp only [Host.reduceAdd, Ideal.hostReduceAdd_def]
  rw [Ideal.hostReduceAdd_single reducesTo_S16x64x64x28x28_S16x64x28x28_d2 (by decide)]
  refine congrArg₂ (· + ·) Ideal.ofBits_zero_f32 (Finset.sum_congr rfl fun k _ => ?_)
  exact congrArg y (funext fun d => Fin.ext (by match d with | ⟨0, _⟩ => rfl | ⟨1, _⟩ => rfl | ⟨2, _⟩ => rfl | ⟨3, _⟩ => rfl | ⟨4, _⟩ => rfl))

/-- One tap at entry (n, co, a, b): zero plus the sum over the input channels of |XP[n, c, a + kh, b + kw] − W[co, c, kh, kw]|. -/
theorem tapR_apply (kh kw : ℕ) (hk : kh ≤ 2) (hw : kw ≤ 2) (hsx : S16x64x30x30.Slices ![0, 0, kh, kw] S16x64x28x28)
    (hsw : S64x64x3x3.Slices ![0, 0, kh, kw] S64x64x1x1) (XP : FVec Ideal S16x64x30x30 .f32) (W : FVec Ideal S64x64x3x3 .f32)
    (n : Fin 16) (co : Fin 64) (a b : Fin 28) :
    tapR kh kw hsx hsw XP W (ix4 n co a b)
      = 0 + ∑ c : Fin 64, Adder.dist
          (XP (ix4 n c (⟨a.val + kh, by have := a.isLt; omega⟩ : Fin 30) (⟨b.val + kw, by have := b.isLt; omega⟩ : Fin 30)))
          (W (ix4 co c (⟨kh, by omega⟩ : Fin 3) (⟨kw, by omega⟩ : Fin 3))) := by
  unfold tapR
  rw [reduceCi_apply]
  refine congrArg (0 + ·) (Finset.sum_congr rfl fun c _ => ?_)
  show Adder.dist
      (broadcastInDim S16x64x64x28x28 ![0, 1, 2, 3, 4] bcast_S16x1x64x28x28_S16x64x64x28x28_0_1_2_3_4
        (broadcastInDim S16x1x64x28x28 ![0, 2, 3, 4] bcast_S16x64x28x28_S16x1x64x28x28_0_2_3_4
          (extractStridedSlice S16x64x28x28 ![0, 0, kh, kw] XP hsx)) (ix5 n co c a b))
      (broadcastInDim S16x64x64x28x28 ![0, 1, 2, 3, 4] bcast_S1x64x64x1x1_S16x64x64x28x28_0_1_2_3_4
        (broadcastInDim S1x64x64x1x1 ![1, 2] bcast_S64x64_S1x64x64x1x1_1_2
          (shapeCast _ (extractStridedSlice S64x64x1x1 ![0, 0, kh, kw] W hsw) shapeCasts_S64x64x1x1_S64x64)) (ix5 n co c a b)) = _
  refine congrArg₂ Adder.dist ?_ ?_
  · -- the padded input's entry: the output channel plays no part
    refine (broadcastInDim_apply _ bcast_S16x1x64x28x28_S16x64x64x28x28_0_1_2_3_4 _ (ix5 n co c a b) (ix5 n (0 : Fin 1) c a b) (fun d => ?_)).trans ?_
    · match d with
      | ⟨0, _⟩ => show n.val = if (16 : ℕ) = 1 then 0 else n.val; rw [if_neg (by decide)]
      | ⟨1, _⟩ => show 0 = if (1 : ℕ) = 1 then 0 else co.val; rw [if_pos rfl]
      | ⟨2, _⟩ => show c.val = if (64 : ℕ) = 1 then 0 else c.val; rw [if_neg (by decide)]
      | ⟨3, _⟩ => show a.val = if (28 : ℕ) = 1 then 0 else a.val; rw [if_neg (by decide)]
      | ⟨4, _⟩ => show b.val = if (28 : ℕ) = 1 then 0 else b.val; rw [if_neg (by decide)]
    refine (broadcastInDim_apply _ bcast_S16x64x28x28_S16x1x64x28x28_0_2_3_4 _ (ix5 n (0 : Fin 1) c a b) (ix4 n c a b) (fun d => ?_)).trans ?_
    · match d with
      | ⟨0, _⟩ => show n.val = if (16 : ℕ) = 1 then 0 else n.val; rw [if_neg (by decide)]
      | ⟨1, _⟩ => show c.val = if (64 : ℕ) = 1 then 0 else c.val; rw [if_neg (by decide)]
      | ⟨2, _⟩ => show a.val = if (28 : ℕ) = 1 then 0 else a.val; rw [if_neg (by decide)]
      | ⟨3, _⟩ => show b.val = if (28 : ℕ) = 1 then 0 else b.val; rw [if_neg (by decide)]
    refine extractStridedSlice_apply ![0, 0, kh, kw] XP hsx (ix4 n c a b) _ (fun d => ?_)
    match d with
    | ⟨0, _⟩ => show n.val = 0 + n.val; omega
    | ⟨1, _⟩ => show c.val = 0 + c.val; omega
    | ⟨2, _⟩ => show a.val + kh = kh + a.val; omega
    | ⟨3, _⟩ => show b.val + kw = kw + b.val; omega
  · -- the weight's entry: image and position play no part
    refine (broadcastInDim_apply _ bcast_S1x64x64x1x1_S16x64x64x28x28_0_1_2_3_4 _ (ix5 n co c a b) (ix5 (0 : Fin 1) co c (0 : Fin 1) (0 : Fin 1)) (fun d => ?_)).trans ?_
    · match d with
      | ⟨0, _⟩ => show 0 = if (1 : ℕ) = 1 then 0 else n.val; rw [if_pos rfl]
      | ⟨1, _⟩ => show co.val = if (64 : ℕ) = 1 then 0 else co.val; rw [if_neg (by decide)]
      | ⟨2, _⟩ => show c.val = if (64 : ℕ) = 1 then 0 else c.val; rw [if_neg (by decide)]
      | ⟨3, _⟩ => show 0 = if (1 : ℕ) = 1 then 0 else a.val; rw [if_pos rfl]
      | ⟨4, _⟩ => show 0 = if (1 : ℕ) = 1 then 0 else b.val; rw [if_pos rfl]
    refine (broadcastInDim_apply _ bcast_S64x64_S1x64x64x1x1_1_2 _ (ix5 (0 : Fin 1) co c (0 : Fin 1) (0 : Fin 1)) (ix2 co c) (fun d => ?_)).trans ?_
    · match d with
      | ⟨0, _⟩ => show co.val = if (64 : ℕ) = 1 then 0 else co.val; rw [if_neg (by decide)]
      | ⟨1, _⟩ => show c.val = if (64 : ℕ) = 1 then 0 else c.val; rw [if_neg (by decide)]
    refine (shapeCast_apply _ shapeCasts_S64x64x1x1_S64x64 (ix2 co c) (ix4 co c (0 : Fin 1) (0 : Fin 1)) ?_).trans ?_
    · rw [Shape.rowMajor_val_four, Shape.rowMajor_val_two]
      show ((co.val * 64 + c.val) * 1 + 0) * 1 + 0 = co.val * 64 + c.val
      omega
    refine extractStridedSlice_apply ![0, 0, kh, kw] W hsw (ix4 co c (0 : Fin 1) (0 : Fin 1)) _ (fun d => ?_)
    match d with
    | ⟨0, _⟩ => show co.val = 0 + co.val; omega
    | ⟨1, _⟩ => show c.val = 0 + c.val; omega
    | ⟨2, _⟩ => show kh = kh + 0; omega
    | ⟨3, _⟩ => show kw = kw + 0; omega

/-- The running array starts at zero. -/
theorem zerosR_apply (p : S16x64x28x28.Idx) : zerosR (F := Ideal) p = 0 := by
  unfold zerosR
  refine (broadcastInDim_apply _ bcast_S_S16x64x28x28 _ p (fun d => d.elim0) (fun d => d.elim0)).trans ?_
  exact Ideal.ofBits_zero_f32

/-- The reference's nine subtractions are the whole-tap arrangement of the convolution. -/
theorem refOut_eq_out9 (XP : FVec Ideal S16x64x30x30 .f32) (W : FVec Ideal S64x64x3x3 .f32) :
    refOut XP W = Adder.out9 XP W := by
  funext p
  obtain ⟨n, co, a, b, rfl⟩ : ∃ (n : Fin 16) (co : Fin 64) (a b : Fin 28), p = ix4 n co a b := ⟨p 0, p 1, p 2, p 3, eq_ix4 p⟩
  unfold refOut
  simp only [subf_apply]
  rw [tapR_apply 0 0 (by omega) (by omega), tapR_apply 0 1 (by omega) (by omega), tapR_apply 0 2 (by omega) (by omega),
    tapR_apply 1 0 (by omega) (by omega), tapR_apply 1 1 (by omega) (by omega), tapR_apply 1 2 (by omega) (by omega),
    tapR_apply 2 0 (by omega) (by omega), tapR_apply 2 1 (by omega) (by omega), tapR_apply 2 2 (by omega) (by omega),
    zerosR_apply]
  rfl

end Cert.Adder.Ref

end
-- ==== Proof.lean ====
/-
  An L1-distance ("adder") convolution: out[n, co, i, j] = − Σ over taps (kh, kw) and input channels c of
  |xpad[n, c, i + kh, j + kw] − W[co, c, kh, kw]|, for x of shape [16, 64, 28, 28] padded by one zero on each side of its
  last two axes and W of shape [64, 64, 3, 3].

  The kernel program pads the input, moves the channels last, runs a grid of sixteen points (one image each) whose body
  subtracts, tap after tap and in four chunks of sixteen input channels per tap, the chunk's sum of distances from a zeroed
  accumulator, and moves the output channels back.  The reference subtracts, tap after tap, the whole sum over the 64 input
  channels from an array of zeros.  On the extended reals a distance max (a − b) (−(a − b)) is never below zero, so the
  sums are never −∞ and subtracting a tap in four chunks is subtracting it whole (Proof/AdderSpec.lean): both programs
  compute one function of the padded input and the weight.  No finiteness of the inputs is used.

  Proof/AdderBody.lean and Proof/AdderBodyAt.lean read the kernel body's block, Proof/AdderKernelValue.lean the
  kernel program's result array, Proof/AdderRef.lean the reference's; the three frames are the generated ones, and the
  idealization rewrote nothing.
-/
import proofs.«155229_j65867618451686_2_alg».proof.Defs
import proofs.«155229_j65867618451686_2_alg».proof.Proof.Gen.Kernel
import proofs.«155229_j65867618451686_2_alg».proof.Proof.Gen.Kernel.Skeleton
import proofs.«155229_j65867618451686_2_alg».proof.Proof.Gen.Kernel.Launch
import proofs.«155229_j65867618451686_2_alg».proof.Proof.Gen.Kernel.Points
import proofs.«155229_j65867618451686_2_alg».proof.Proof.Gen.Kernel.Frame
import proofs.«155229_j65867618451686_2_alg».proof.Proof.Gen.KernelIdeal
import proofs.«155229_j65867618451686_2_alg».proof.Proof.Gen.KernelIdeal.Skeleton
import proofs.«155229_j65867618451686_2_alg».proof.Proof.Gen.KernelIdeal.Launch
import proofs.«155229_j65867618451686_2_alg».proof.Proof.Gen.KernelIdeal.Points
import proofs.«155229_j65867618451686_2_alg».proof.Proof.Gen.KernelIdeal.Frame
import proofs.«155229_j65867618451686_2_alg».proof.Proof.Gen.ReferenceIdeal
import proofs.«155229_j65867618451686_2_alg».proof.Proof.Gen.Pre_finite_inputs
import proofs.«155229_j65867618451686_2_alg».proof.Proof.Gen.ReferenceIdeal.Run
import proofs.«155229_j65867618451686_2_alg».proof.Proof.Gen.ReferenceIdeal.Read
import proofs.«155229_j65867618451686_2_alg».proof.Proof.AdderKernelValue
import proofs.«155229_j65867618451686_2_alg».proof.Proof.AdderRef
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the convolution of the padded input and the weight: the kernel in the chunked arrangement, the
    reference in the whole-tap arrangement, and the two arrangements are one array. -/
theorem algebraic : Cert.algebraic_KernelIdeal_ReferenceIdeal := by
  intro m ρ m' ρ' _ hagree
  refine ⟨fun c => Cert.Adder.out36 (Cert.Adder.Kernel.XP m c) (Cert.Adder.Kernel.WT m c), Cert.Adder.Kernel.run m ρ, ?_⟩
  refine (θ_run Cert.ReferenceIdeal.defs _ _).mono (fun _ h c => ⟨(h c).1.trans ?_, (h c).2⟩)
    (Cert.ReferenceIdeal.Value.run (F := Ideal) m' ρ')
  have e := Cert.ReferenceIdeal.Read.val_main_v100_eq (F := Ideal) m' c
  rw [(hagree c).1, (hagree c).2] at e
  exact e.trans ((Cert.Adder.Ref.ref_eq_refOut _ _).trans ((Cert.Adder.Ref.refOut_eq_out9 _ _).trans
    (Cert.Adder.out36_eq_out9 (Cert.Adder.Kernel.XP m c) (Cert.Adder.Kernel.WT m c)).symm))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
